-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S14x2x1024 : Shape := ⟨3, ![14, 2, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S14x2x1024 : S_.BroadcastsInDim S14x2x1024 (![] : Fin 0 → Fin S14x2x1024.rank)
  reducesTo_S14x2x1024_S_d0_1_2 : S14x2x1024.ReducesTo [0, 1, 2] S_

variable [Facts]

def fn {F : FTy → Type} [FloatOps F] (main_arg0 : FVec F S16x4096x1024 .f32) (main_arg1 : FVec F S14x2x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S14x2x1024 .f32 := Host.absf main_arg1
  let main_cst_0 : FVec F S_ .f32 := constant S_ .f32 0x7F800000#32
  let main_v5 : FVec F S14x2x1024 .f32 := broadcastInDim S14x2x1024 ![] bcast_S_S14x2x1024 main_cst_0
  let main_v6 : IVec S14x2x1024 1 := cmpf .olt main_v4 main_v5
  let main_c_1 : IVec S_ 1 := constantI S_ 1 1#1
  let main_v7 : IVec S_ 1 := (fun x v => Host.reduce IntOp.andi x v reducesTo_S14x2x1024_S_d0_1_2 h_S_) main_v6 main_c_1
  let main_v8 : IVec S_ 1 := andi main_v3 main_v7
  main_v8
-- ==== Kernel.lean ====
abbrev S16x4096x1024 : Shape := ⟨3, ![16, 4096, 1024]⟩
abbrev S14x2x1024 : Shape := ⟨3, ![14, 2, 1024]⟩
abbrev S14x1x1024 : Shape := ⟨3, ![14, 1, 1024]⟩
abbrev S14x1024 : Shape := ⟨2, ![14, 1024]⟩
abbrev S16x1024 : Shape := ⟨2, ![16, 1024]⟩
abbrev S16x14 : Shape := ⟨2, ![16, 14]⟩
abbrev S8x512x1024 : Shape := ⟨3, ![8, 512, 1024]⟩
abbrev S8x1024 : Shape := ⟨2, ![8, 1024]⟩
abbrev S8x14 : Shape := ⟨2, ![8, 14]⟩
abbrev S1024x14 : Shape := ⟨2, ![1024, 14]⟩
abbrev S8x256x1024 : Shape := ⟨3, ![8, 256, 1024]⟩
abbrev S8x1x1024 : Shape := ⟨3, ![8, 1, 1024]⟩

abbrev nBuf : Space → Nat
  | .hbm => 9
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S14x2x1024, .f32⟩
  | .hbm, ⟨2, _⟩ => ⟨S14x1x1024, .f32⟩
  | .hbm, ⟨3, _⟩ => ⟨S14x1024, .f32⟩
  | .hbm, ⟨4, _⟩ => ⟨S14x1x1024, .f32⟩
  | .hbm, ⟨5, _⟩ => ⟨S14x1024, .f32⟩
  | .hbm, ⟨6, _⟩ => ⟨S16x1024, .f32⟩
  | .hbm, ⟨7, _⟩ => ⟨S16x14, .f32⟩
  | .hbm, ⟨8, _⟩ => ⟨S16x4096x1024, .f32⟩
  | .local _ .vmem, ⟨0, _⟩ => ⟨S8x512x1024, .f32⟩
  | .local _ .vmem, ⟨1, _⟩ => ⟨S8x512x1024, .f32⟩
  | .local _ .vmem, ⟨2, _⟩ => ⟨S14x1024, .f32⟩
  | .local _ .vmem, ⟨3, _⟩ => ⟨S14x1024, .f32⟩
  | .local _ .vmem, ⟨4, _⟩ => ⟨S8x1024, .f32⟩
  | .local _ .vmem, ⟨5, _⟩ => ⟨S8x1024, .f32⟩
  | .local _ .vmem, ⟨6, _⟩ => ⟨S8x14, .f32⟩
  | .local _ .vmem, ⟨7, _⟩ => ⟨S8x14, .f32⟩
  | .local _ .vmem, ⟨8, _⟩ => ⟨S8x1024, .f32⟩
  | .local _ .vmem, ⟨9, _⟩ => ⟨S8x256x1024, .f32⟩
  | .local _ .vmem, ⟨10, _⟩ => ⟨S8x256x1024, .f32⟩
  | .local _ .vmem, ⟨11, _⟩ => ⟨S8x1024, .f32⟩
  | .local _ .vmem, ⟨12, _⟩ => ⟨S8x1024, .f32⟩
  | .local _ .vmem, ⟨13, _⟩ => ⟨S8x256x1024, .f32⟩
  | .local _ .vmem, ⟨14, _⟩ => ⟨S8x256x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S14x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S14x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x14 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S14x2x1024_S14x1x1024_0_0_0 : S14x2x1024.Slices ![0, 0, 0] S14x1x1024
  shapeCasts_S14x1x1024_S14x1024 : S14x1x1024.ShapeCasts S14x1024
  slices_S14x2x1024_S14x1x1024_0_1_0 : S14x2x1024.Slices ![0, 1, 0] S14x1x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x512x1024_S8x512x1024_0_0_0 : ∀ a, (![0, 0, 0] : Fin 3 → Nat) a + S8x512x1024.size a ≤ S8x512x1024.size a
  h_S8x512x1024 : 0 < S8x512x1024.numel
  reduces_S8x512x1024_S8x1024 : S8x512x1024.Reduces [1] S8x1024
  inb_S14x1024_S14x1024_0_0 : ∀ a, (![0, 0] : Fin 2 → Nat) a + S14x1024.size a ≤ S14x1024.size a
  h_S14x1024 : 0 < S14x1024.numel
  shapeCasts_S14x1024_S14x1024 : S14x1024.ShapeCasts S14x1024
  transposes_S14x1024_p1_0_S1024x14 : S14x1024.Transposes [1, 0] S1024x14
  natLt_1_32 : 1 < 32
  inb_S8x14_S8x14_0_0 : ∀ a, (![0, 0] : Fin 2 → Nat) a + S8x14.size a ≤ S8x14.size a
  h_S8x14 : 0 < S8x14.numel
  inb_S8x256x1024_S8x256x1024_0_0_0 : ∀ a, (![0, 0, 0] : Fin 3 → Nat) a + S8x256x1024.size a ≤ S8x256x1024.size a
  h_S8x256x1024 : 0 < S8x256x1024.numel
  shapeCasts_S8x1024_S8x1x1024 : S8x1024.ShapeCasts S8x1x1024
  broadcasts_S8x1x1024_S8x256x1024 : S8x1x1024.Broadcasts S8x256x1024
  dot_S8x1024_S1024x14_S8x14_1_0_0_1_n_n_wf : DotDims.WF S8x1024 S1024x14 S8x14 [1] [0] [0] [1] [] []
  dot_S8x14_S14x1024_S8x1024_1_0_0_1_n_n_wf : DotDims.WF S8x14 S14x1024 S8x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x1024.size a ≤ S16x4096x1024.size a
  hwx0_0 : ∀ i : grid0.Coords, EltTy.bits .f32 = 32 ∨ (Rect.block (s := S16x4096x1024) S8x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S14x1024.size a ≤ S14x1024.size a
  hwx0_1 : ∀ i : grid0.Coords, EltTy.bits .f32 = 32 ∨ (Rect.block (s := S14x1024) S14x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S14x1024.size a ≤ S14x1024.size a
  hwx0_2 : ∀ i : grid0.Coords, EltTy.bits .f32 = 32 ∨ (Rect.block (s := S14x1024) S14x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x14.size a ≤ S16x14.size a
  hwx0_4 : ∀ i : grid0.Coords, EltTy.bits .f32 = 32 ∨ (Rect.block (s := S16x14) S8x14.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1024.size a ≤ S16x4096x1024.size a
  hwx1_0 : ∀ i : grid1.Coords, EltTy.bits .f32 = 32 ∨ (Rect.block (s := S16x4096x1024) S8x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1024.size a ≤ S16x1024.size a
  hwx1_1 : ∀ i : grid1.Coords, EltTy.bits .f32 = 32 ∨ (Rect.block (s := S16x1024) S8x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x1024.size a ≤ S16x4096x1024.size a
  hwx1_2 : ∀ i : grid1.Coords, EltTy.bits .f32 = 32 ∨ (Rect.block (s := S16x4096x1024) S8x256x1024.size (cc1_transform_2 i) (hinb1_2 i)).WholeWords (EltTy.packing .f32)

variable [Facts₀]

def dot_S8x1024_S1024x14_S8x14_1_0_0_1_n_n : DotDims S8x1024 S1024x14 S8x14 where
  lhsContracting := [1]
  rhsContracting := [0]
  lhsNonContracting := [0]
  rhsNonContracting := [1]
  lhsBatch := []
  rhsBatch := []
  wf := dot_S8x1024_S1024x14_S8x14_1_0_0_1_n_n_wf
def dot_S8x14_S14x1024_S8x1024_1_0_0_1_n_n : DotDims S8x14 S14x1024 S8x1024 where
  lhsContracting := [1]
  rhsContracting := [0]
  lhsNonContracting := [0]
  rhsNonContracting := [1]
  lhsBatch := []
  rhsBatch := []
  wf := dot_S8x14_S14x1024_S8x1024_1_0_0_1_n_n_wf

abbrev win0_0 : Pipeline.Window sig grid0 :=
  Pipeline.Window.ofSpec (Memref.whole main_arg0) S8x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S14x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S14x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S8x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S8x14.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S8x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S8x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8x256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where
  halias1_2 : Pipeline.Aliased win1 0 2

variable [Facts]
-- ==== ReferenceIdeal.lean ====
abbrev S16x4096x1024 : Shape := ⟨3, ![16, 4096, 1024]⟩
abbrev S14x2x1024 : Shape := ⟨3, ![14, 2, 1024]⟩
abbrev S_ : Shape := ⟨0, ![]⟩
abbrev S16x1024 : Shape := ⟨2, ![16, 1024]⟩
abbrev S16x14x2 : Shape := ⟨3, ![16, 14, 2]⟩
abbrev S16x14 : Shape := ⟨2, ![16, 14]⟩
abbrev S16x14x1 : Shape := ⟨3, ![16, 14, 1]⟩
abbrev S14x1x1024 : Shape := ⟨3, ![14, 1, 1024]⟩
abbrev S14x1024 : Shape := ⟨2, ![14, 1024]⟩
abbrev S16x1x1024 : Shape := ⟨3, ![16, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S14x2x1024, .f32⟩
  | .hbm, ⟨2, _⟩ => ⟨S_, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S16x14x2, .f32⟩
  | .hbm, ⟨8, _⟩ => ⟨S_, .f32⟩
  | .hbm, ⟨9, _⟩ => ⟨S_, .f32⟩
  | .hbm, ⟨10, _⟩ => ⟨S16x14x2, .f32⟩
  | .hbm, ⟨11, _⟩ => ⟨S16x14x2, .f32⟩
  | .hbm, ⟨12, _⟩ => ⟨S_, .f32⟩
  | .hbm, ⟨13, _⟩ => ⟨S16x14, .f32⟩
  | .hbm, ⟨14, _⟩ => ⟨S_, .f32⟩
  | .hbm, ⟨15, _⟩ => ⟨S16x14, .f32⟩
  | .hbm, ⟨16, _⟩ => ⟨S16x14, .f32⟩
  | .hbm, ⟨17, _⟩ => ⟨S16x14x1, .f32⟩
  | .hbm, ⟨18, _⟩ => ⟨S16x14x2, .f32⟩
  | .hbm, ⟨19, _⟩ => ⟨S16x14x2, .f32⟩
  | .hbm, ⟨20, _⟩ => ⟨S16x14x2, .f32⟩
  | .hbm, ⟨21, _⟩ => ⟨S_, .f32⟩
  | .hbm, ⟨22, _⟩ => ⟨S16x14, .f32⟩
  | .hbm, ⟨23, _⟩ => ⟨S16x14x1, .f32⟩
  | .hbm, ⟨24, _⟩ => ⟨S16x14x2, .f32⟩
  | .hbm, ⟨25, _⟩ => ⟨S16x14x2, .f32⟩
  | .hbm, ⟨26, _⟩ => ⟨S16x14x1, .f32⟩
  | .hbm, ⟨27, _⟩ => ⟨S16x14, .f32⟩
  | .hbm, ⟨28, _⟩ => ⟨S_, .f32⟩
  | .hbm, ⟨29, _⟩ => ⟨S16x14, .f32⟩
  | .hbm, ⟨30, _⟩ => ⟨S16x14, .i1⟩
  | .hbm, ⟨31, _⟩ => ⟨S16x14, .f32⟩
  | .hbm, ⟨32, _⟩ => ⟨S14x1x1024, .f32⟩
  | .hbm, ⟨33, _⟩ => ⟨S14x1024, .f32⟩
  | .hbm, ⟨34, _⟩ => ⟨S16x1024, .f32⟩
  | .hbm, ⟨35, _⟩ => ⟨S16x1x1024, .f32⟩
  | .hbm, ⟨36, _⟩ => ⟨S16x4096x1024, .f32⟩
  | .hbm, ⟨37, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S16x4096x1024_S16x1024_d1 : S16x4096x1024.ReducesTo [1] S16x1024
  h_S_ : 0 < S_.numel
  bcast_S_S16x1024 : S_.BroadcastsInDim S16x1024 (![] : Fin 0 → Fin S16x1024.rank)
  bcast_S_S16x14x2 : S_.BroadcastsInDim S16x14x2 (![] : Fin 0 → Fin S16x14x2.rank)
  reducesTo_S16x14x2_S16x14_d2 : S16x14x2.ReducesTo [2] S16x14
  bcast_S_S16x14 : S_.BroadcastsInDim S16x14 (![] : Fin 0 → Fin S16x14.rank)
  bcast_S16x14_S16x14x1_0_1 : S16x14.BroadcastsInDim S16x14x1 (![0, 1] : Fin 2 → Fin S16x14x1.rank)
  bcast_S16x14x1_S16x14x2_0_1_2 : S16x14x1.BroadcastsInDim S16x14x2 (![0, 1, 2] : Fin 3 → Fin S16x14x2.rank)
  slices_S16x14x2_S16x14x1_0_0_1 : S16x14x2.Slices ![0, 0, 1] S16x14x1
  shapeCasts_S16x14x1_S16x14 : S16x14x1.ShapeCasts S16x14
  slices_S14x2x1024_S14x1x1024_0_1_0 : S14x2x1024.Slices ![0, 1, 0] S14x1x1024
  shapeCasts_S14x1x1024_S14x1024 : S14x1x1024.ShapeCasts S14x1024
  bcast_S16x1024_S16x1x1024_0_2 : S16x1024.BroadcastsInDim S16x1x1024 (![0, 2] : Fin 2 → Fin S16x1x1024.rank)
  bcast_S16x1x1024_S16x4096x1024_0_1_2 : S16x1x1024.BroadcastsInDim S16x4096x1024 (![0, 1, 2] : Fin 3 → Fin S16x4096x1024.rank)
  dot_S16x1024_S14x2x1024_S16x14x2_1_2_0_01_n_n_wf : DotDims.WF S16x1024 S14x2x1024 S16x14x2 [1] [2] [0] [0, 1] [] []
  dot_S16x14_S14x1024_S16x1024_1_0_0_1_n_n_wf : DotDims.WF S16x14 S14x1024 S16x1024 [1] [0] [0] [1] [] []

variable [Facts₀]

def dot_S16x1024_S14x2x1024_S16x14x2_1_2_0_01_n_n : DotDims S16x1024 S14x2x1024 S16x14x2 where
  lhsContracting := [1]
  rhsContracting := [2]
  lhsNonContracting := [0]
  rhsNonContracting := [0, 1]
  lhsBatch := []
  rhsBatch := []
  wf := dot_S16x1024_S14x2x1024_S16x14x2_1_2_0_01_n_n_wf
def dot_S16x14_S14x1024_S16x1024_1_0_0_1_n_n : DotDims S16x14 S14x1024 S16x1024 where
  lhsContracting := [1]
  rhsContracting := [0]
  lhsNonContracting := [0]
  rhsNonContracting := [1]
  lhsBatch := []
  rhsBatch := []
  wf := dot_S16x14_S14x1024_S16x1024_1_0_0_1_n_n_wf

class Facts : Prop extends Facts₀ where

variable [Facts]
-- ==== Proof.KPoolRuns.lean ====
import proofs.«131445_j70824010711116_2_alg».proof.Proof.Gen.Kernel.Launch
import proofs.«131445_j70824010711116_2_alg».proof.Proof.Gen.Kernel.Skeleton
import proofs.«131445_j70824010711116_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The pooling kernel's body, case by case

The body first clears its accumulator when the sequence coordinate is 0, then adds the block's sum over
the sequence axis to it, and when the sequence coordinate is the last one it also computes both outputs
from the accumulator and the two parameter tables. A row of the grid therefore meets three kinds of point:
the first (clear, add), a middle one (add), the last (add, then the outputs). -/

/-- The body clears the accumulator: the sequence coordinate is 0. -/
abbrev isFirst (i : grid0.Coords) : Prop :=
  (Scalar.cmpi .ne (Scalar.extui (Scalar.cmpi .eq (BitVec.ofNat 32 (i 1).val) 0#32)) 0#32) = 1#1
/-- The body writes the outputs: the sequence coordinate is the last one. -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, isLast (grid0.coords t) ↔ t.val % 8 = 7 :=
  (by decide +kernel : ∀ t : Fin grid0.N, isLast (grid0.coords t) ↔ t.val % 8 = 7)

set_option maxHeartbeats 1000000 in
/-- A first point: the accumulator, found at anything, ends at the pieces the two stores leave; the inputs and
    the two output buffers come back as they were. -/
noncomputable def runFirst (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : isFirst i) (h2 : ¬isLast i)
    (x0 : Vec F S8x512x1024 .f32) (x1 : Vec F S14x1024 .f32) (x2 : Vec F S14x1024 .f32) :
    { LS : List (View.Piece (Elt F) S8x1024 .f32) //
      ∀ (y3 : Vec F S8x1024 .f32) (y4 : Vec F S8x14 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, arg7.view.loc (c : Thread nD τ) ↦[arg7.view.set]{fullShare} arg7.view.writes (Elt F) f LS)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, fun y3 y4 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- A middle point: the accumulator, found at `s`, ends at the pieces the one store leaves. -/
noncomputable def runMid (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : ¬isFirst i) (h2 : ¬isLast i)
    (x0 : Vec F S8x512x1024 .f32) (x1 : Vec F S14x1024 .f32) (x2 : Vec F S14x1024 .f32) (s : Vec F S8x1024 .f32) :
    { LS : List (View.Piece (Elt F) S8x1024 .f32) //
      ∀ (y3 : Vec F S8x1024 .f32) (y4 : Vec F S8x14 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4 ∗ owns (c : Thread nD τ) arg7 fullShare s
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, arg7.view.loc (c : Thread nD τ) ↦[arg7.view.set]{fullShare} arg7.view.writes (Elt F) f LS)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, fun y3 y4 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- A last point: the accumulator, found at `s`, ends at the pieces the one store leaves, and each output buffer,
    found at anything, at the pieces its store leaves. -/
noncomputable def runLast (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : ¬isFirst i) (h2 : isLast i)
    (x0 : Vec F S8x512x1024 .f32) (x1 : Vec F S14x1024 .f32) (x2 : Vec F S14x1024 .f32) (s : Vec F S8x1024 .f32) :
    Σ' (L3 : List (View.Piece (Elt F) S8x1024 .f32)) (L4 : List (View.Piece (Elt F) S8x14 .f32)), { LS : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ owns (c : Thread nD τ) arg7 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg2.eq_unread hf0; obtain rfl := harg3.eq_unread hf1; obtain rfl := harg4.eq_unread hf2
    obtain rfl := harg7.eq_unread hfs
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS

end Cert.Kernel.Pool

end
-- ==== Proof.KPoolDat.lean ====
import proofs.«131445_j70824010711116_2_alg».proof.Proof.KPoolRuns

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling region's proof data, at the contents `V` it is entered from -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Where the output windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬t.val % 8 = 7 → cfg0.idle 3 (grid0.coords t) = true := by decide +kernel
theorem idle4 : ∀ t : Fin cfg0.N, ¬t.val % 8 = 7 → cfg0.idle 4 (grid0.coords t) = true := by decide +kernel
theorem noFlush3 : ∀ t : Fin cfg0.N, ¬t.val % 8 = 7 → (cfg0.win 3).flush t = false := by decide +kernel
theorem noFlush4 : ∀ t : Fin cfg0.N, ¬t.val % 8 = 7 → (cfg0.win 4).flush t = false := by decide +kernel
theorem live3 : ∀ t : Fin cfg0.N, t.val % 8 = 7 → cfg0.idle 3 (grid0.coords t) = false := by decide +kernel
theorem live4 : ∀ t : Fin cfg0.N, t.val % 8 = 7 → cfg0.idle 4 (grid0.coords t) = false := by decide +kernel

/-! ## The memrefs the body is called with -/

abbrev ms0 (t : Fin cfg0.N) : Memref sig .tc .vmem S8x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S14x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S14x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x14 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S8x1024 .f32 := Memref.whole cc0_scratch0
abbrev VS : View sig .tc .vmem S8x1024 .f32 := (scM : Memref sig .tc .vmem S8x1024 .f32).view
abbrev VO3 : View sig .tc .vmem S8x1024 .f32 := (Memref.whole cc0_stg3_0 : Memref sig .tc .vmem S8x1024 .f32).view
abbrev VO4 : View sig .tc .vmem S8x14 .f32 := (Memref.whole cc0_stg4_0 : Memref sig .tc .vmem S8x14 .f32).view

/-! ## What a point leaves in the accumulator and in the outputs -/

/-- The accumulator after point `t`, which found it at `s` (a first point overwrites it whatever it held). -/
def accStep (c : Dev nD) (t : Fin cfg0.N) (s : Vec F S8x1024 .f32) : Vec F S8x1024 .f32 :=
  if h1 : t.val % 8 = 0 then
    VS.read (Elt F) (VS.writes (Elt F) VS.junk (runFirst (F := F) c (grid0.coords t) (ms0 t) (hs0 t) (ms1 t) (hs1 t) (ms2 t) (hs2 t) (ms3 t) (hs3 t) (ms4 t) (hs4 t) scM (Memref.isWhole_whole _) ((isFirst_iff t).mpr h1) (fun h => by have := (isLast_iff t).mp h; omega) (iblk0 V c 0 t) (iblk0 V c 1 t) (iblk0 V c 2 t)).1)
  else if h2 : t.val % 8 = 7 then
    VS.read (Elt F) (VS.writes (Elt F) VS.junk (runLast (F := F) c (grid0.coords t) (ms0 t) (hs0 t) (ms1 t) (hs1 t) (ms2 t) (hs2 t) (ms3 t) (hs3 t) (ms4 t) (hs4 t) scM (Memref.isWhole_whole _) (fun h => h1 ((isFirst_iff t).mp h)) ((isLast_iff t).mpr h2) (iblk0 V c 0 t) (iblk0 V c 1 t) (iblk0 V c 2 t) s).2.2.1)
  else
    VS.read (Elt F) (VS.writes (Elt F) VS.junk (runMid (F := F) c (grid0.coords t) (ms0 t) (hs0 t) (ms1 t) (hs1 t) (ms2 t) (hs2 t) (ms3 t) (hs3 t) (ms4 t) (hs4 t) scM (Memref.isWhole_whole _) (fun h => h1 ((isFirst_iff t).mp h)) (fun h => h2 ((isLast_iff t).mp h)) (iblk0 V c 0 t) (iblk0 V c 1 t) (iblk0 V c 2 t) s).1)

/-- The accumulator after the point at position `n`. -/
def accAt (c : Dev nD) : (n : ℕ) → n < cfg0.N → Vec F S8x1024 .f32
  | 0, hn => accStep V c ⟨0, hn⟩ VS.junk
  | n + 1, hn => accStep V c ⟨n + 1, hn⟩ (accAt c n (Nat.lt_of_succ_lt hn))

/-- What point `t` found in the accumulator. -/
def accBefore (c : Dev nD) (t : Fin cfg0.N) : Vec F S8x1024 .f32 :=
  if h : t.val = 0 then VS.junk else accAt V c (t.val - 1) (Nat.lt_of_le_of_lt (Nat.sub_le _ _) t.isLt)

theorem accAt_eq (c : Dev nD) (t : Fin cfg0.N) : accAt V c t.val t.isLt = accStep V c t (accBefore V c t) := by
  obtain ⟨n, hn⟩ := t
  cases n with
  | zero => rfl
  | succ n => rfl

/-- What a last point leaves in the two output buffers (elsewhere a placeholder nothing consults). -/
def out3At (c : Dev nD) (t : Fin cfg0.N) : Vec F S8x1024 .f32 :=
  if h2 : t.val % 8 = 7 then
    VO3.read (Elt F) (VO3.writes (Elt F) VO3.junk (runLast (F := F) c (grid0.coords t) (ms0 t) (hs0 t) (ms1 t) (hs1 t) (ms2 t) (hs2 t) (ms3 t) (hs3 t) (ms4 t) (hs4 t) scM (Memref.isWhole_whole _) (fun h => by have := (isFirst_iff t).mp h; omega) ((isLast_iff t).mpr h2) (iblk0 V c 0 t) (iblk0 V c 1 t) (iblk0 V c 2 t) (accBefore V c t)).1)
  else VO3.junk
def out4At (c : Dev nD) (t : Fin cfg0.N) : Vec F S8x14 .f32 :=
  if h2 : t.val % 8 = 7 then
    VO4.read (Elt F) (VO4.writes (Elt F) VO4.junk (runLast (F := F) c (grid0.coords t) (ms0 t) (hs0 t) (ms1 t) (hs1 t) (ms2 t) (hs2 t) (ms3 t) (hs3 t) (ms4 t) (hs4 t) scM (Memref.isWhole_whole _) (fun h => by have := (isFirst_iff t).mp h; omega) ((isLast_iff t).mpr h2) (iblk0 V c 0 t) (iblk0 V c 1 t) (iblk0 V c 2 t) (accBefore V c t)).2.1)
  else VO4.junk

/-! ## The region invariant -/

/-- The scoped buffers of the other call, each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others; rw [scopedRest0_eq]; simp only [scM, owns_whole]; try rfl

/-- Before position `n`: at the start the class's invariant (the accumulator at anything); afterwards the accumulator
    at what the point before left, the other call's buffers and the generator register at anything. -/
def PhiS (c : Dev nD) : (n : ℕ) → n ≤ cfg0.N → sProp 𝕄
  | 0, _ => Pipeline.ΦA spec0 c
  | n + 1, hn => iprop(iprop(owns (c : Thread nD τ) scM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare (accAt V c n hn) ∗ others (F := F) c) ∗ (∃ r, prngReg c r)) := rfl
theorem PhiS_pos (c : Dev nD) (n : ℕ) (h : n ≤ cfg0.N) (hz : n ≠ 0) :
    PhiS V c n h = iprop(iprop(owns (c : Thread nD τ) scM fullShare (accAt V c (n - 1) (by omega)) ∗ others (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out3At V c t
    | ⟨4, _⟩ => out4At V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out3At V c t := by dsimp only [dat0]
theorem after0_4 (c : Dev nD) (t : Fin cfg0.N) : (dat0 V c).after 4 t = out4At V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Pool

end
-- ==== Proof.KPoolBody.lean ====
import proofs.«131445_j70824010711116_2_alg».proof.Proof.KPoolDat

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling region's body obligation -/

/-! ## The stores of each case cover the buffer they write -/

theorem coverFirst (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : isFirst i) (h2 : ¬isLast i)
    (x0 : Vec F S8x512x1024 .f32) (x1 : Vec F S14x1024 .f32) (x2 : Vec F S14x1024 .f32) (y : S8x1024.Idx) :
    ∃ pc ∈ (runFirst (F := F) c i arg2 harg2 arg3 harg3 arg4 harg4 arg5 harg5 arg6 harg6 arg7 harg7 h1 h2 x0 x1 x2).1, y ∈ pc.1.set :=
  View.cover_of_tiledL (runFirst (F := F) c i arg2 harg2 arg3 harg3 arg4 harg4 arg5 harg5 arg6 harg6 arg7 harg7 h1 h2 x0 x1 x2).1 S8x1024.size (by sl_kernel_rfl) y
theorem coverMid (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : ¬isFirst i) (h2 : ¬isLast i)
    (x0 : Vec F S8x512x1024 .f32) (x1 : Vec F S14x1024 .f32) (x2 : Vec F S14x1024 .f32) (s : Vec F S8x1024 .f32) (y : S8x1024.Idx) :
    ∃ pc ∈ (runMid (F := F) c i arg2 harg2 arg3 harg3 arg4 harg4 arg5 harg5 arg6 harg6 arg7 harg7 h1 h2 x0 x1 x2 s).1, y ∈ pc.1.set :=
  View.cover_of_tiledL (runMid (F := F) c i arg2 harg2 arg3 harg3 arg4 harg4 arg5 harg5 arg6 harg6 arg7 harg7 h1 h2 x0 x1 x2 s).1 S8x1024.size (by sl_kernel_rfl) y
theorem coverLastS (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : ¬isFirst i) (h2 : isLast i)
    (x0 : Vec F S8x512x1024 .f32) (x1 : Vec F S14x1024 .f32) (x2 : Vec F S14x1024 .f32) (s : Vec F S8x1024 .f32) (y : S8x1024.Idx) :
    ∃ pc ∈ (runLast (F := F) c i arg2 harg2 arg3 harg3 arg4 harg4 arg5 harg5 arg6 harg6 arg7 harg7 h1 h2 x0 x1 x2 s).2.2.1, y ∈ pc.1.set :=
  View.cover_of_tiledL (runLast (F := F) c i arg2 harg2 arg3 harg3 arg4 harg4 arg5 harg5 arg6 harg6 arg7 harg7 h1 h2 x0 x1 x2 s).2.2.1 S8x1024.size (by sl_kernel_rfl) y
theorem coverLast3 (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : ¬isFirst i) (h2 : isLast i)
    (x0 : Vec F S8x512x1024 .f32) (x1 : Vec F S14x1024 .f32) (x2 : Vec F S14x1024 .f32) (s : Vec F S8x1024 .f32) (y : S8x1024.Idx) :
    ∃ pc ∈ (runLast (F := F) c i arg2 harg2 arg3 harg3 arg4 harg4 arg5 harg5 arg6 harg6 arg7 harg7 h1 h2 x0 x1 x2 s).1, y ∈ pc.1.set :=
  View.cover_of_tiledL (runLast (F := F) c i arg2 harg2 arg3 harg3 arg4 harg4 arg5 harg5 arg6 harg6 arg7 harg7 h1 h2 x0 x1 x2 s).1 S8x1024.size (by sl_kernel_rfl) y
theorem coverLast4 (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : ¬isFirst i) (h2 : isLast i)
    (x0 : Vec F S8x512x1024 .f32) (x1 : Vec F S14x1024 .f32) (x2 : Vec F S14x1024 .f32) (s : Vec F S8x1024 .f32) (y : S8x14.Idx) :
    ∃ pc ∈ (runLast (F := F) c i arg2 harg2 arg3 harg3 arg4 harg4 arg5 harg5 arg6 harg6 arg7 harg7 h1 h2 x0 x1 x2 s).2.1, y ∈ pc.1.set :=
  View.cover_of_tiledL (runLast (F := F) c i arg2 harg2 arg3 harg3 arg4 harg4 arg5 harg5 arg6 harg6 arg7 harg7 h1 h2 x0 x1 x2 s).2.1 S8x14.size (by sl_kernel_rfl) y

/-! ## The obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem accBefore_pos (c : Dev nD) (t : Fin cfg0.N) (hz : t.val ≠ 0) :
    accBefore V c t = accAt V c (t.val - 1) (Nat.lt_of_le_of_lt (Nat.sub_le _ _) t.isLt) := dif_neg hz

set_option maxHeartbeats 4800000 in
/-- At any point the inputs' memrefs hold their blocks; the point's position in its row of the grid says which
    case of the body runs; the invariant hands the body the accumulator at what the point before left (at
    anything at the very first point) and takes it back at what this point leaves. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live0 t], after0_0]
  rw [show (dat0 V c).leavesExact 1 t = owns (c : Thread nD τ) (ms1 t) fullShare ((dat0 V c).after 1 t) from by
    unfold Dat.leavesExact; rw [live1 t], after0_1]
  rw [show (dat0 V c).leavesExact 2 t = owns (c : Thread nD τ) (ms2 t) fullShare ((dat0 V c).after 2 t) from by
    unfold Dat.leavesExact; rw [live2 t], after0_2]
  rw [accAt_eq V c t]
  have hN : t.val < 16 := lt_of_lt_of_eq t.isLt (show cfg0.N = 16 from N_0)
  by_cases h1 : t.val % 8 = 0
  · have h7 : ¬t.val % 8 = 7 := by omega
    rw [Dat.leavesExact_idle (dat0 V c) 3 t (idle3 t h7) (noFlush3 t h7),
      Dat.leavesExact_idle (dat0 V c) 4 t (idle4 t h7) (noFlush4 t h7)]
    unfold accStep; rw [dif_pos h1]
    by_cases hz : t.val = 0
    · rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩⟩
      iapply ((runFirst (F := F) c (grid0.coords t) _ _ _ _ _ _ _ _ _ _ _ _ ((isFirst_iff t).mpr h1) (fun h => h7 ((isLast_iff t).mp h)) (iblk0 V c 0 t) (iblk0 V c 1 t) (iblk0 V c 2 t)).2 _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runFirst (F := F) c (grid0.coords t) _ _ _ _ _ _ _ _ _ _ _ _ ((isFirst_iff t).mpr h1) (fun h => h7 ((isLast_iff t).mp h)) (iblk0 V c 0 t) (iblk0 V c 1 t) (iblk0 V c 2 t)).2 _ _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h1 (by rw [h])
    rw [PhiS_castSucc V c t, PhiS_pos V c _ _ hz, accBefore_pos V c t hz]
    by_cases h2 : t.val % 8 = 7
    · rw [show (dat0 V c).leavesExact 3 t = owns (c : Thread nD τ) (ms3 t) fullShare ((dat0 V c).after 3 t) from by
        unfold Dat.leavesExact; rw [live3 t h2], after0_3]
      rw [show (dat0 V c).leavesExact 4 t = owns (c : Thread nD τ) (ms4 t) fullShare ((dat0 V c).after 4 t) from by
        unfold Dat.leavesExact; rw [live4 t h2], after0_4]
      unfold accStep out3At out4At; rw [dif_neg h1, dif_pos h2, dif_pos h2, dif_pos h2, accBefore_pos V c t hz]
      iintro ⟨⟨⟨HS, Hoth⟩, Hg⟩, Ho, ⟨%d0, H0⟩, ⟨%d1, H1⟩, ⟨%d2, H2⟩, ⟨%d3, H3⟩, ⟨%d4, H4⟩⟩
      iapply ((runLast (F := F) c (grid0.coords t) _ _ _ _ _ _ _ _ _ _ _ _ (fun h => h1 ((isFirst_iff t).mp h)) ((isLast_iff t).mpr h2) (iblk0 V c 0 t) (iblk0 V c 1 t) (iblk0 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastS c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverLast3 c _ _ _ _ _ _ _ _ _ _ _ _ _ _ _ _ _ _ _)
      unfold owns; iexists _; isplitr
      swap; · iexact H4
      ipureintro; exact View.read_writes_of_cover _ _ _ _ _ (coverLast4 c _ _ _ _ _ _ _ _ _ _ _ _ _ _ _ _ _ _ _)
    · rw [Dat.leavesExact_idle (dat0 V c) 3 t (idle3 t h2) (noFlush3 t h2),
        Dat.leavesExact_idle (dat0 V c) 4 t (idle4 t h2) (noFlush4 t h2)]
      unfold accStep; rw [dif_neg h1, dif_neg h2]
      iintro ⟨⟨⟨HS, Hoth⟩, Hg⟩, Ho, ⟨%d0, H0⟩, ⟨%d1, H1⟩, ⟨%d2, H2⟩, ⟨%d3, H3⟩, ⟨%d4, H4⟩⟩
      iapply ((runMid (F := F) c (grid0.coords t) _ _ _ _ _ _ _ _ _ _ _ _ (fun h => h1 ((isFirst_iff t).mp h)) (fun h => h2 ((isLast_iff t).mp h)) (iblk0 V c 0 t) (iblk0 V c 1 t) (iblk0 V c 2 t) _).2 _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: what the accumulator holds is forgotten. -/
theorem Phi0_out (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS, Hoth⟩, Hg⟩
  isplitl [HS Hoth]
  · isplitl [HS]
    · iexists _; iexact HS
    iexact Hoth
  iexact Hg

end Cert.Kernel.Pool

end
-- ==== Proof.KAddDat.lean ====
import proofs.«131445_j70824010711116_2_alg».proof.Proof.Gen.Kernel.Launch
import proofs.«131445_j70824010711116_2_alg».proof.Proof.Gen.Kernel.Skeleton
import proofs.«131445_j70824010711116_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Add

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The broadcast-add region's proof data, at the contents `V` it is entered from

Every point loads its block of the big array and its block of the pooled correction, adds the correction to
every sequence position of the block, and stores the whole result block. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rBig : Rect S8x256x1024 := Rect.unit (s := S8x256x1024) ![0, 0, 0] S8x256x1024.size inb_S8x256x1024_S8x256x1024_0_0_0
abbrev rRow : Rect S8x1024 := Rect.unit (s := S8x1024) ![0, 0] S8x1024.size inb_S8x1024_S8x1024_0_0

/-- The output buffer after the body: its one store, of the sum of the two loaded blocks. -/
def outAdd (x0 : Vec F S8x256x1024 .f32) (x1 : Vec F S8x1024 .f32) : Vec F S8x256x1024 .f32 :=
  View.canon [⟨rBig, k1_pay1 (View.ld x0 rBig) (View.ld x1 rRow)⟩]

theorem coverAdd (p0 : Vec F S8x256x1024 .f32) (y : S8x256x1024.Idx) :
    ∃ pc ∈ ([⟨rBig, p0⟩] : List (View.Piece (Elt F) S8x256x1024 .f32)), y ∈ pc.1.set :=
  View.cover_of_tiled [⟨rBig, p0⟩] S8x256x1024.size (by rfl) y

set_option maxHeartbeats 1000000 in
theorem sound_add (c : Dev nD) (E : Set ℕ) (i : grid1.Coords) (arg2 : Memref sig .tc .vmem S8x256x1024 .f32) (harg2 : arg2.IsWhole) (arg3 : Memref sig .tc .vmem S8x1024 .f32) (harg3 : arg3.IsWhole) (arg4 : Memref sig .tc .vmem S8x256x1024 .f32) (harg4 : arg4.IsWhole)
    (x0 : Vec F S8x256x1024 .f32) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outAdd x0 x1)) -∗ K ⟨⟩))
      ⊢ wp frame (wpE (defs₀ (F := F)) Variants.none c none) E (cc1__add_kernel i arg2 harg2 arg3 harg3 arg4 harg4) K := by
  simp only [cc1__add_kernel_eq_skeleton]; unfold cc1__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverAdd _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAdd (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAdd (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_add c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Add

end
-- ==== Proof.KRun.lean ====
import proofs.«131445_j70824010711116_2_alg».proof.Proof.KPoolBody
import proofs.«131445_j70824010711116_2_alg».proof.Proof.KAddDat
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Pool Cert.Kernel.Add

variable (m : (ℓ : Loc nD τ sig) → Buf (Elt F) ℓ) (ρ : Dev nD → PrngReg)

/-! # The whole run: two stretches of host operations and the two regions, in @main's order

The buffer contents at each boundary are a fold from the launch memory: a host stretch applies its operations,
a region leaves each of its arrays at what its write-backs made of it and every other buffer as it was. -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (Phi0_out (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg1) := rfl

/-- The frame: every execution terminates without a fault and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.Kernel.Run

end
-- ==== Proof.KIPoolRuns.lean ====
import proofs.«131445_j70824010711116_2_alg».proof.Proof.Gen.KernelIdeal.Launch
import proofs.«131445_j70824010711116_2_alg».proof.Proof.Gen.KernelIdeal.Skeleton
import proofs.«131445_j70824010711116_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The pooling kernel's body, case by case

The body first clears its accumulator when the sequence coordinate is 0, then adds the block's sum over
the sequence axis to it, and when the sequence coordinate is the last one it also computes both outputs
from the accumulator and the two parameter tables. A row of the grid therefore meets three kinds of point:
the first (clear, add), a middle one (add), the last (add, then the outputs). -/

/-- The body clears the accumulator: the sequence coordinate is 0. -/
abbrev isFirst (i : grid0.Coords) : Prop :=
  (Scalar.cmpi .ne (Scalar.extui (Scalar.cmpi .eq (BitVec.ofNat 32 (i 1).val) 0#32)) 0#32) = 1#1
/-- The body writes the outputs: the sequence coordinate is the last one. -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, isLast (grid0.coords t) ↔ t.val % 8 = 7 :=
  (by decide +kernel : ∀ t : Fin grid0.N, isLast (grid0.coords t) ↔ t.val % 8 = 7)

set_option maxHeartbeats 1000000 in
/-- A first point: the accumulator, found at anything, ends at the pieces the two stores leave; the inputs and
    the two output buffers come back as they were. -/
noncomputable def runFirst (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : isFirst i) (h2 : ¬isLast i)
    (x0 : Vec F S8x512x1024 .f32) (x1 : Vec F S14x1024 .f32) (x2 : Vec F S14x1024 .f32) :
    { LS : List (View.Piece (Elt F) S8x1024 .f32) //
      ∀ (y3 : Vec F S8x1024 .f32) (y4 : Vec F S8x14 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, arg7.view.loc (c : Thread nD τ) ↦[arg7.view.set]{fullShare} arg7.view.writes (Elt F) f LS)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, fun y3 y4 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- A middle point: the accumulator, found at `s`, ends at the pieces the one store leaves. -/
noncomputable def runMid (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : ¬isFirst i) (h2 : ¬isLast i)
    (x0 : Vec F S8x512x1024 .f32) (x1 : Vec F S14x1024 .f32) (x2 : Vec F S14x1024 .f32) (s : Vec F S8x1024 .f32) :
    { LS : List (View.Piece (Elt F) S8x1024 .f32) //
      ∀ (y3 : Vec F S8x1024 .f32) (y4 : Vec F S8x14 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare y3 ∗ owns (c : Thread nD τ) arg6 fullShare y4 ∗ owns (c : Thread nD τ) arg7 fullShare s
            ∗ (iprop(owns (c : Thread nD τ) arg2 fullShare x0 ∗ owns (c : Thread nD τ) arg3 fullShare x1 ∗ owns (c : Thread nD τ) arg4 fullShare x2
                ∗ owns (c : Thread nD τ) arg5 fullShare y3 ∗ owns (c : Thread nD τ) arg6 fullShare y4
                ∗ (∃ f, arg7.view.loc (c : Thread nD τ) ↦[arg7.view.set]{fullShare} arg7.view.writes (Elt F) f LS)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, fun y3 y4 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- A last point: the accumulator, found at `s`, ends at the pieces the one store leaves, and each output buffer,
    found at anything, at the pieces its store leaves. -/
noncomputable def runLast (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : ¬isFirst i) (h2 : isLast i)
    (x0 : Vec F S8x512x1024 .f32) (x1 : Vec F S14x1024 .f32) (x2 : Vec F S14x1024 .f32) (s : Vec F S8x1024 .f32) :
    Σ' (L3 : List (View.Piece (Elt F) S8x1024 .f32)) (L4 : List (View.Piece (Elt F) S8x14 .f32)), { LS : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ owns (c : Thread nD τ) arg7 fullShare s
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg2.eq_unread hf0; obtain rfl := harg3.eq_unread hf1; obtain rfl := harg4.eq_unread hf2
    obtain rfl := harg7.eq_unread hfs
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS

end Cert.KernelIdeal.Pool

end
-- ==== Proof.KIPoolDat.lean ====
import proofs.«131445_j70824010711116_2_alg».proof.Proof.KIPoolRuns

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling region's proof data, at the contents `V` it is entered from -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Where the output windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬t.val % 8 = 7 → cfg0.idle 3 (grid0.coords t) = true := by decide +kernel
theorem idle4 : ∀ t : Fin cfg0.N, ¬t.val % 8 = 7 → cfg0.idle 4 (grid0.coords t) = true := by decide +kernel
theorem noFlush3 : ∀ t : Fin cfg0.N, ¬t.val % 8 = 7 → (cfg0.win 3).flush t = false := by decide +kernel
theorem noFlush4 : ∀ t : Fin cfg0.N, ¬t.val % 8 = 7 → (cfg0.win 4).flush t = false := by decide +kernel
theorem live3 : ∀ t : Fin cfg0.N, t.val % 8 = 7 → cfg0.idle 3 (grid0.coords t) = false := by decide +kernel
theorem live4 : ∀ t : Fin cfg0.N, t.val % 8 = 7 → cfg0.idle 4 (grid0.coords t) = false := by decide +kernel

/-! ## The memrefs the body is called with -/

abbrev ms0 (t : Fin cfg0.N) : Memref sig .tc .vmem S8x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S14x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S14x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x14 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S8x1024 .f32 := Memref.whole cc0_scratch0
abbrev VS : View sig .tc .vmem S8x1024 .f32 := (scM : Memref sig .tc .vmem S8x1024 .f32).view
abbrev VO3 : View sig .tc .vmem S8x1024 .f32 := (Memref.whole cc0_stg3_0 : Memref sig .tc .vmem S8x1024 .f32).view
abbrev VO4 : View sig .tc .vmem S8x14 .f32 := (Memref.whole cc0_stg4_0 : Memref sig .tc .vmem S8x14 .f32).view

/-! ## What a point leaves in the accumulator and in the outputs -/

/-- The accumulator after point `t`, which found it at `s` (a first point overwrites it whatever it held). -/
def accStep (c : Dev nD) (t : Fin cfg0.N) (s : Vec F S8x1024 .f32) : Vec F S8x1024 .f32 :=
  if h1 : t.val % 8 = 0 then
    VS.read (Elt F) (VS.writes (Elt F) VS.junk (runFirst (F := F) c (grid0.coords t) (ms0 t) (hs0 t) (ms1 t) (hs1 t) (ms2 t) (hs2 t) (ms3 t) (hs3 t) (ms4 t) (hs4 t) scM (Memref.isWhole_whole _) ((isFirst_iff t).mpr h1) (fun h => by have := (isLast_iff t).mp h; omega) (iblk0 V c 0 t) (iblk0 V c 1 t) (iblk0 V c 2 t)).1)
  else if h2 : t.val % 8 = 7 then
    VS.read (Elt F) (VS.writes (Elt F) VS.junk (runLast (F := F) c (grid0.coords t) (ms0 t) (hs0 t) (ms1 t) (hs1 t) (ms2 t) (hs2 t) (ms3 t) (hs3 t) (ms4 t) (hs4 t) scM (Memref.isWhole_whole _) (fun h => h1 ((isFirst_iff t).mp h)) ((isLast_iff t).mpr h2) (iblk0 V c 0 t) (iblk0 V c 1 t) (iblk0 V c 2 t) s).2.2.1)
  else
    VS.read (Elt F) (VS.writes (Elt F) VS.junk (runMid (F := F) c (grid0.coords t) (ms0 t) (hs0 t) (ms1 t) (hs1 t) (ms2 t) (hs2 t) (ms3 t) (hs3 t) (ms4 t) (hs4 t) scM (Memref.isWhole_whole _) (fun h => h1 ((isFirst_iff t).mp h)) (fun h => h2 ((isLast_iff t).mp h)) (iblk0 V c 0 t) (iblk0 V c 1 t) (iblk0 V c 2 t) s).1)

/-- The accumulator after the point at position `n`. -/
def accAt (c : Dev nD) : (n : ℕ) → n < cfg0.N → Vec F S8x1024 .f32
  | 0, hn => accStep V c ⟨0, hn⟩ VS.junk
  | n + 1, hn => accStep V c ⟨n + 1, hn⟩ (accAt c n (Nat.lt_of_succ_lt hn))

/-- What point `t` found in the accumulator. -/
def accBefore (c : Dev nD) (t : Fin cfg0.N) : Vec F S8x1024 .f32 :=
  if h : t.val = 0 then VS.junk else accAt V c (t.val - 1) (Nat.lt_of_le_of_lt (Nat.sub_le _ _) t.isLt)

theorem accAt_eq (c : Dev nD) (t : Fin cfg0.N) : accAt V c t.val t.isLt = accStep V c t (accBefore V c t) := by
  obtain ⟨n, hn⟩ := t
  cases n with
  | zero => rfl
  | succ n => rfl

/-- What a last point leaves in the two output buffers (elsewhere a placeholder nothing consults). -/
def out3At (c : Dev nD) (t : Fin cfg0.N) : Vec F S8x1024 .f32 :=
  if h2 : t.val % 8 = 7 then
    VO3.read (Elt F) (VO3.writes (Elt F) VO3.junk (runLast (F := F) c (grid0.coords t) (ms0 t) (hs0 t) (ms1 t) (hs1 t) (ms2 t) (hs2 t) (ms3 t) (hs3 t) (ms4 t) (hs4 t) scM (Memref.isWhole_whole _) (fun h => by have := (isFirst_iff t).mp h; omega) ((isLast_iff t).mpr h2) (iblk0 V c 0 t) (iblk0 V c 1 t) (iblk0 V c 2 t) (accBefore V c t)).1)
  else VO3.junk
def out4At (c : Dev nD) (t : Fin cfg0.N) : Vec F S8x14 .f32 :=
  if h2 : t.val % 8 = 7 then
    VO4.read (Elt F) (VO4.writes (Elt F) VO4.junk (runLast (F := F) c (grid0.coords t) (ms0 t) (hs0 t) (ms1 t) (hs1 t) (ms2 t) (hs2 t) (ms3 t) (hs3 t) (ms4 t) (hs4 t) scM (Memref.isWhole_whole _) (fun h => by have := (isFirst_iff t).mp h; omega) ((isLast_iff t).mpr h2) (iblk0 V c 0 t) (iblk0 V c 1 t) (iblk0 V c 2 t) (accBefore V c t)).2.1)
  else VO4.junk

/-! ## The region invariant -/

/-- The scoped buffers of the other call, each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others; rw [scopedRest0_eq]; simp only [scM, owns_whole]; try rfl

/-- Before position `n`: at the start the class's invariant (the accumulator at anything); afterwards the accumulator
    at what the point before left, the other call's buffers and the generator register at anything. -/
def PhiS (c : Dev nD) : (n : ℕ) → n ≤ cfg0.N → sProp 𝕄
  | 0, _ => Pipeline.ΦA spec0 c
  | n + 1, hn => iprop(iprop(owns (c : Thread nD τ) scM fullShare (accAt V c n hn) ∗ others (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare (accAt V c n hn) ∗ others (F := F) c) ∗ (∃ r, prngReg c r)) := rfl
theorem PhiS_pos (c : Dev nD) (n : ℕ) (h : n ≤ cfg0.N) (hz : n ≠ 0) :
    PhiS V c n h = iprop(iprop(owns (c : Thread nD τ) scM fullShare (accAt V c (n - 1) (by omega)) ∗ others (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out3At V c t
    | ⟨4, _⟩ => out4At V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out3At V c t := by dsimp only [dat0]
theorem after0_4 (c : Dev nD) (t : Fin cfg0.N) : (dat0 V c).after 4 t = out4At V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Pool

end
-- ==== Proof.KIPoolBody.lean ====
import proofs.«131445_j70824010711116_2_alg».proof.Proof.KIPoolDat

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The pooling region's body obligation -/

/-! ## The stores of each case cover the buffer they write -/

theorem coverFirst (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : isFirst i) (h2 : ¬isLast i)
    (x0 : Vec F S8x512x1024 .f32) (x1 : Vec F S14x1024 .f32) (x2 : Vec F S14x1024 .f32) (y : S8x1024.Idx) :
    ∃ pc ∈ (runFirst (F := F) c i arg2 harg2 arg3 harg3 arg4 harg4 arg5 harg5 arg6 harg6 arg7 harg7 h1 h2 x0 x1 x2).1, y ∈ pc.1.set :=
  View.cover_of_tiledL (runFirst (F := F) c i arg2 harg2 arg3 harg3 arg4 harg4 arg5 harg5 arg6 harg6 arg7 harg7 h1 h2 x0 x1 x2).1 S8x1024.size (by sl_kernel_rfl) y
theorem coverMid (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : ¬isFirst i) (h2 : ¬isLast i)
    (x0 : Vec F S8x512x1024 .f32) (x1 : Vec F S14x1024 .f32) (x2 : Vec F S14x1024 .f32) (s : Vec F S8x1024 .f32) (y : S8x1024.Idx) :
    ∃ pc ∈ (runMid (F := F) c i arg2 harg2 arg3 harg3 arg4 harg4 arg5 harg5 arg6 harg6 arg7 harg7 h1 h2 x0 x1 x2 s).1, y ∈ pc.1.set :=
  View.cover_of_tiledL (runMid (F := F) c i arg2 harg2 arg3 harg3 arg4 harg4 arg5 harg5 arg6 harg6 arg7 harg7 h1 h2 x0 x1 x2 s).1 S8x1024.size (by sl_kernel_rfl) y
theorem coverLastS (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : ¬isFirst i) (h2 : isLast i)
    (x0 : Vec F S8x512x1024 .f32) (x1 : Vec F S14x1024 .f32) (x2 : Vec F S14x1024 .f32) (s : Vec F S8x1024 .f32) (y : S8x1024.Idx) :
    ∃ pc ∈ (runLast (F := F) c i arg2 harg2 arg3 harg3 arg4 harg4 arg5 harg5 arg6 harg6 arg7 harg7 h1 h2 x0 x1 x2 s).2.2.1, y ∈ pc.1.set :=
  View.cover_of_tiledL (runLast (F := F) c i arg2 harg2 arg3 harg3 arg4 harg4 arg5 harg5 arg6 harg6 arg7 harg7 h1 h2 x0 x1 x2 s).2.2.1 S8x1024.size (by sl_kernel_rfl) y
theorem coverLast3 (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : ¬isFirst i) (h2 : isLast i)
    (x0 : Vec F S8x512x1024 .f32) (x1 : Vec F S14x1024 .f32) (x2 : Vec F S14x1024 .f32) (s : Vec F S8x1024 .f32) (y : S8x1024.Idx) :
    ∃ pc ∈ (runLast (F := F) c i arg2 harg2 arg3 harg3 arg4 harg4 arg5 harg5 arg6 harg6 arg7 harg7 h1 h2 x0 x1 x2 s).1, y ∈ pc.1.set :=
  View.cover_of_tiledL (runLast (F := F) c i arg2 harg2 arg3 harg3 arg4 harg4 arg5 harg5 arg6 harg6 arg7 harg7 h1 h2 x0 x1 x2 s).1 S8x1024.size (by sl_kernel_rfl) y
theorem coverLast4 (c : Dev nD) (i : grid0.Coords) (arg2 : Memref sig .tc .vmem S8x512x1024 .f32) (harg2 : arg2.IsWhole) (arg3 : Memref sig .tc .vmem S14x1024 .f32) (harg3 : arg3.IsWhole) (arg4 : Memref sig .tc .vmem S14x1024 .f32) (harg4 : arg4.IsWhole) (arg5 : Memref sig .tc .vmem S8x1024 .f32) (harg5 : arg5.IsWhole) (arg6 : Memref sig .tc .vmem S8x14 .f32) (harg6 : arg6.IsWhole) (arg7 : Memref sig .tc .vmem S8x1024 .f32) (harg7 : arg7.IsWhole) (h1 : ¬isFirst i) (h2 : isLast i)
    (x0 : Vec F S8x512x1024 .f32) (x1 : Vec F S14x1024 .f32) (x2 : Vec F S14x1024 .f32) (s : Vec F S8x1024 .f32) (y : S8x14.Idx) :
    ∃ pc ∈ (runLast (F := F) c i arg2 harg2 arg3 harg3 arg4 harg4 arg5 harg5 arg6 harg6 arg7 harg7 h1 h2 x0 x1 x2 s).2.1, y ∈ pc.1.set :=
  View.cover_of_tiledL (runLast (F := F) c i arg2 harg2 arg3 harg3 arg4 harg4 arg5 harg5 arg6 harg6 arg7 harg7 h1 h2 x0 x1 x2 s).2.1 S8x14.size (by sl_kernel_rfl) y

/-! ## The obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem accBefore_pos (c : Dev nD) (t : Fin cfg0.N) (hz : t.val ≠ 0) :
    accBefore V c t = accAt V c (t.val - 1) (Nat.lt_of_le_of_lt (Nat.sub_le _ _) t.isLt) := dif_neg hz

set_option maxHeartbeats 4800000 in
/-- At any point the inputs' memrefs hold their blocks; the point's position in its row of the grid says which
    case of the body runs; the invariant hands the body the accumulator at what the point before left (at
    anything at the very first point) and takes it back at what this point leaves. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live0 t], after0_0]
  rw [show (dat0 V c).leavesExact 1 t = owns (c : Thread nD τ) (ms1 t) fullShare ((dat0 V c).after 1 t) from by
    unfold Dat.leavesExact; rw [live1 t], after0_1]
  rw [show (dat0 V c).leavesExact 2 t = owns (c : Thread nD τ) (ms2 t) fullShare ((dat0 V c).after 2 t) from by
    unfold Dat.leavesExact; rw [live2 t], after0_2]
  rw [accAt_eq V c t]
  have hN : t.val < 16 := lt_of_lt_of_eq t.isLt (show cfg0.N = 16 from N_0)
  by_cases h1 : t.val % 8 = 0
  · have h7 : ¬t.val % 8 = 7 := by omega
    rw [Dat.leavesExact_idle (dat0 V c) 3 t (idle3 t h7) (noFlush3 t h7),
      Dat.leavesExact_idle (dat0 V c) 4 t (idle4 t h7) (noFlush4 t h7)]
    unfold accStep; rw [dif_pos h1]
    by_cases hz : t.val = 0
    · rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩⟩
      iapply ((runFirst (F := F) c (grid0.coords t) _ _ _ _ _ _ _ _ _ _ _ _ ((isFirst_iff t).mpr h1) (fun h => h7 ((isLast_iff t).mp h)) (iblk0 V c 0 t) (iblk0 V c 1 t) (iblk0 V c 2 t)).2 _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runFirst (F := F) c (grid0.coords t) _ _ _ _ _ _ _ _ _ _ _ _ ((isFirst_iff t).mpr h1) (fun h => h7 ((isLast_iff t).mp h)) (iblk0 V c 0 t) (iblk0 V c 1 t) (iblk0 V c 2 t)).2 _ _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h1 (by rw [h])
    rw [PhiS_castSucc V c t, PhiS_pos V c _ _ hz, accBefore_pos V c t hz]
    by_cases h2 : t.val % 8 = 7
    · rw [show (dat0 V c).leavesExact 3 t = owns (c : Thread nD τ) (ms3 t) fullShare ((dat0 V c).after 3 t) from by
        unfold Dat.leavesExact; rw [live3 t h2], after0_3]
      rw [show (dat0 V c).leavesExact 4 t = owns (c : Thread nD τ) (ms4 t) fullShare ((dat0 V c).after 4 t) from by
        unfold Dat.leavesExact; rw [live4 t h2], after0_4]
      unfold accStep out3At out4At; rw [dif_neg h1, dif_pos h2, dif_pos h2, dif_pos h2, accBefore_pos V c t hz]
      iintro ⟨⟨⟨HS, Hoth⟩, Hg⟩, Ho, ⟨%d0, H0⟩, ⟨%d1, H1⟩, ⟨%d2, H2⟩, ⟨%d3, H3⟩, ⟨%d4, H4⟩⟩
      iapply ((runLast (F := F) c (grid0.coords t) _ _ _ _ _ _ _ _ _ _ _ _ (fun h => h1 ((isFirst_iff t).mp h)) ((isLast_iff t).mpr h2) (iblk0 V c 0 t) (iblk0 V c 1 t) (iblk0 V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastS c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverLast3 c _ _ _ _ _ _ _ _ _ _ _ _ _ _ _ _ _ _ _)
      unfold owns; iexists _; isplitr
      swap; · iexact H4
      ipureintro; exact View.read_writes_of_cover _ _ _ _ _ (coverLast4 c _ _ _ _ _ _ _ _ _ _ _ _ _ _ _ _ _ _ _)
    · rw [Dat.leavesExact_idle (dat0 V c) 3 t (idle3 t h2) (noFlush3 t h2),
        Dat.leavesExact_idle (dat0 V c) 4 t (idle4 t h2) (noFlush4 t h2)]
      unfold accStep; rw [dif_neg h1, dif_neg h2]
      iintro ⟨⟨⟨HS, Hoth⟩, Hg⟩, Ho, ⟨%d0, H0⟩, ⟨%d1, H1⟩, ⟨%d2, H2⟩, ⟨%d3, H3⟩, ⟨%d4, H4⟩⟩
      iapply ((runMid (F := F) c (grid0.coords t) _ _ _ _ _ _ _ _ _ _ _ _ (fun h => h1 ((isFirst_iff t).mp h)) (fun h => h2 ((isLast_iff t).mp h)) (iblk0 V c 0 t) (iblk0 V c 1 t) (iblk0 V c 2 t) _).2 _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: what the accumulator holds is forgotten. -/
theorem Phi0_out (c : Dev nD) : (dat0 V c).Φ (Fin.last cfg0.N) ⊢ Pipeline.ΦA spec0 c := by
  have ht : (Fin.last cfg0.N).val ≠ 0 := by rw [Fin.val_last]; have : cfg0.N = 16 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS, Hoth⟩, Hg⟩
  isplitl [HS Hoth]
  · isplitl [HS]
    · iexists _; iexact HS
    iexact Hoth
  iexact Hg

end Cert.KernelIdeal.Pool

end
-- ==== Proof.KIAddDat.lean ====
import proofs.«131445_j70824010711116_2_alg».proof.Proof.Gen.KernelIdeal.Launch
import proofs.«131445_j70824010711116_2_alg».proof.Proof.Gen.KernelIdeal.Skeleton
import proofs.«131445_j70824010711116_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Add

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The broadcast-add region's proof data, at the contents `V` it is entered from

Every point loads its block of the big array and its block of the pooled correction, adds the correction to
every sequence position of the block, and stores the whole result block. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev rBig : Rect S8x256x1024 := Rect.unit (s := S8x256x1024) ![0, 0, 0] S8x256x1024.size inb_S8x256x1024_S8x256x1024_0_0_0
abbrev rRow : Rect S8x1024 := Rect.unit (s := S8x1024) ![0, 0] S8x1024.size inb_S8x1024_S8x1024_0_0

/-- The output buffer after the body: its one store, of the sum of the two loaded blocks. -/
def outAdd (x0 : Vec F S8x256x1024 .f32) (x1 : Vec F S8x1024 .f32) : Vec F S8x256x1024 .f32 :=
  View.canon [⟨rBig, k1_pay1 (View.ld x0 rBig) (View.ld x1 rRow)⟩]

theorem coverAdd (p0 : Vec F S8x256x1024 .f32) (y : S8x256x1024.Idx) :
    ∃ pc ∈ ([⟨rBig, p0⟩] : List (View.Piece (Elt F) S8x256x1024 .f32)), y ∈ pc.1.set :=
  View.cover_of_tiled [⟨rBig, p0⟩] S8x256x1024.size (by rfl) y

set_option maxHeartbeats 1000000 in
theorem sound_add (c : Dev nD) (E : Set ℕ) (i : grid1.Coords) (arg2 : Memref sig .tc .vmem S8x256x1024 .f32) (harg2 : arg2.IsWhole) (arg3 : Memref sig .tc .vmem S8x1024 .f32) (harg3 : arg3.IsWhole) (arg4 : Memref sig .tc .vmem S8x256x1024 .f32) (harg4 : arg4.IsWhole)
    (x0 : Vec F S8x256x1024 .f32) (x1 : Vec F S8x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outAdd x0 x1)) -∗ K ⟨⟩))
      ⊢ wp frame (wpE (defs₀ (F := F)) Variants.none c none) E (cc1__add_kernel i arg2 harg2 arg3 harg3 arg4 harg4) K := by
  simp only [cc1__add_kernel_eq_skeleton]; unfold cc1__add_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverAdd _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAdd (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAdd (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_add c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Add

end
-- ==== Proof.KIRun.lean ====
import proofs.«131445_j70824010711116_2_alg».proof.Proof.KIPoolBody
import proofs.«131445_j70824010711116_2_alg».proof.Proof.KIAddDat
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Pool Cert.KernelIdeal.Add

variable (m : (ℓ : Loc nD τ sig) → Buf (Elt F) ℓ) (ρ : Dev nD → PrngReg)

/-! # The whole run: two stretches of host operations and the two regions, in @main's order

The buffer contents at each boundary are a fold from the launch memory: a host stretch applies its operations,
a region leaves each of its arrays at what its write-backs made of it and every other buffer as it was. -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (Phi0_out (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = m ((c : Thread nD τ).loc main_arg1) := rfl

/-- The frame: every execution terminates without a fault and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.KernelIdeal.Run

end
-- ==== Proof.LibWholeStore.lean ====
/-
  Whole-buffer stores and loads.

  A rectangle at offset zero whose extent is the whole shape is the whole index set. So a store through it,
  made last, leaves exactly its payload whatever the buffer held and whatever was stored before; and a load
  through it reads the contents as they are.
-/
import Idealize.ShloMosaic.Lib.Pipeline.FrameBody
import Idealize.ShloMosaic.Lib.Pipeline.Value

noncomputable section

namespace Idealize.ShloMosaic.View

open Idealize.ShloMosaic

variable {sig : RefSig} {κ : Kind} {sp : Space} {S : Shape} {e : EltTy} {Val : EltTy → Type} [∀ e, Nonempty (Val e)]

/-- Every index lies in the rectangle at offset zero of full extent. -/
theorem mem_unit_zero_full {off : Fin S.rank → Nat} (h : off = fun _ => 0) (inb : ∀ a, off a + S.size a ≤ S.size a) (y : S.Idx) :
    y ∈ (Rect.unit off S.size inb).set := by
  subst h
  show y ∈ (Rect.whole S).set
  rw [Rect.set_whole]; exact Finset.mem_univ y

/-- A store of the whole buffer, made last, leaves its payload. -/
theorem read_writes_cons_unit_zero (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon v f _ (fun y => ⟨_, List.mem_cons_self, mem_unit_zero_full h inb y⟩), canon_cons_unit_zero h inb w L]

/-- A load of the whole buffer reads its contents. -/
theorem readAt_unit_zero (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [readAt_eq_ld, ld_unit_zero h inb]

end Idealize.ShloMosaic.View

end
-- ==== Proof.KIPieces.lean ====
import proofs.«131445_j70824010711116_2_alg».proof.Proof.KIPoolBody
import proofs.«131445_j70824010711116_2_alg».proof.Proof.LibWholeStore

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # What each case of the pooling body leaves, as the body's own arithmetic

Every load and store of the body moves a whole buffer, so what a case leaves in the accumulator and in the two
outputs is the body's pure arithmetic applied to what the buffers held: the accumulator gets the block's sum over
the sequence axis added to it (after being cleared at a first point), and at a last point the outputs are computed
from the new accumulator and the two parameter tables. -/

theorem hz2 : (![0, 0] : Fin 2 → ℕ) = fun _ => 0 := by funext a; fin_cases a <;> rfl
theorem hz3 : (![0, 0, 0] : Fin 3 → ℕ) = fun _ => 0 := by funext a; fin_cases a <;> rfl

/-- A load of a whole buffer whose contents are known reads those contents. -/
theorem rd {S : Shape} {e : EltTy} (M : Memref sig .tc .vmem S e) (h : M.IsWhole) {off : Fin S.rank → ℕ} (hz : off = fun _ => 0)
    (inb : ∀ a, off a + S.size a ≤ S.size a) (x : S.Idx → Elt F e) :
    View.readAt (Elt F) M.view (Rect.unit off S.size inb).toLoadRect (h.unread x) = x :=
  (View.readAt_unit_zero _ _ hz inb).trans (h.read_unread x)

theorem accStep_mid (c : Dev nD) (t : Fin cfg0.N) (s : Vec F S8x1024 .f32) (h1 : ¬t.val % 8 = 0) (h2 : ¬t.val % 8 = 7) :
    accStep V c t s = k0_pay2 s (iblk0 V c 0 t) := by
  unfold accStep; rw [dif_neg h1, dif_neg h2]
  unfold runMid; dsimp only
  refine (View.read_writes_cons_unit_zero VS VS.junk hz2 inb_S8x1024_S8x1024_0_0 _ _).trans ?_
  have e0 := rd (F := F) (ms0 t) (hs0 t) hz3 inb_S8x512x1024_S8x512x1024_0_0_0 (iblk0 V c 0 t)
  have es := rd (F := F) scM (Memref.isWhole_whole _) hz2 inb_S8x1024_S8x1024_0_0 s
  exact congrArg₂ k0_pay2 es e0

theorem accStep_first (c : Dev nD) (t : Fin cfg0.N) (s : Vec F S8x1024 .f32) (h1 : t.val % 8 = 0) :
    accStep V c t s = k0_pay2 (k0_pay1 (F := F)) (iblk0 V c 0 t) := by
  unfold accStep; rw [dif_pos h1]
  unfold runFirst; dsimp only
  refine (View.read_writes_cons_unit_zero VS VS.junk hz2 inb_S8x1024_S8x1024_0_0 _ _).trans ?_
  have e0 := rd (F := F) (ms0 t) (hs0 t) hz3 inb_S8x512x1024_S8x512x1024_0_0_0 (iblk0 V c 0 t)
  sl_unfold_run_names
  exact congrArg₂ k0_pay2 (View.readCov_unit_zero _ hz2 inb_S8x1024_S8x1024_0_0 _) e0

theorem accStep_last (c : Dev nD) (t : Fin cfg0.N) (s : Vec F S8x1024 .f32) (h1 : ¬t.val % 8 = 0) (h2 : t.val % 8 = 7) :
    accStep V c t s = k0_pay2 s (iblk0 V c 0 t) := by
  unfold accStep; rw [dif_neg h1, dif_pos h2]
  unfold runLast; dsimp only
  sl_unfold_run_names
  refine (View.read_writes_cons_unit_zero VS VS.junk hz2 inb_S8x1024_S8x1024_0_0 _ _).trans ?_
  have e0 := rd (F := F) (ms0 t) (hs0 t) hz3 inb_S8x512x1024_S8x512x1024_0_0_0 (iblk0 V c 0 t)
  have es := rd (F := F) scM (Memref.isWhole_whole _) hz2 inb_S8x1024_S8x1024_0_0 s
  exact congrArg₂ k0_pay2 es e0

set_option maxHeartbeats 600000 in
theorem out4_last (c : Dev nD) (t : Fin cfg0.N) (h2 : t.val % 8 = 7) :
    out4At V c t = k0_pay4 (k0_pay2 (accBefore V c t) (iblk0 V c 0 t)) (iblk0 V c 1 t) (iblk0 V c 2 t) := by
  unfold out4At; rw [dif_pos h2]
  unfold runLast; dsimp only
  sl_unfold_run_names
  refine (View.read_writes_cons_unit_zero VO4 VO4.junk hz2 inb_S8x14_S8x14_0_0 _ _).trans ?_
  have e1 := rd (F := F) (ms1 t) (hs1 t) hz2 inb_S14x1024_S14x1024_0_0 (iblk0 V c 1 t)
  have e2 := rd (F := F) (ms2 t) (hs2 t) hz2 inb_S14x1024_S14x1024_0_0 (iblk0 V c 2 t)
  rw [e1, e2]
  refine congrArg (fun v => k0_pay4 v (iblk0 V c 1 t) (iblk0 V c 2 t)) ?_
  refine (View.readCov_unit_zero _ hz2 inb_S8x1024_S8x1024_0_0 _).trans ?_
  exact congrArg₂ k0_pay2 (rd (F := F) scM (Memref.isWhole_whole _) hz2 inb_S8x1024_S8x1024_0_0 _)
    (rd (F := F) (ms0 t) (hs0 t) hz3 inb_S8x512x1024_S8x512x1024_0_0_0 (iblk0 V c 0 t))

set_option maxHeartbeats 600000 in
theorem out3_last (c : Dev nD) (t : Fin cfg0.N) (h2 : t.val % 8 = 7) :
    out3At V c t = k0_pay5 (k0_pay2 (accBefore V c t) (iblk0 V c 0 t)) (iblk0 V c 1 t) (iblk0 V c 2 t) := by
  unfold out3At; rw [dif_pos h2]
  unfold runLast; dsimp only
  sl_unfold_run_names
  refine (View.read_writes_cons_unit_zero VO3 VO3.junk hz2 inb_S8x1024_S8x1024_0_0 _ _).trans ?_
  have e1 := rd (F := F) (ms1 t) (hs1 t) hz2 inb_S14x1024_S14x1024_0_0 (iblk0 V c 1 t)
  have e2 := rd (F := F) (ms2 t) (hs2 t) hz2 inb_S14x1024_S14x1024_0_0 (iblk0 V c 2 t)
  rw [e1, e2]
  refine congrArg (fun v => k0_pay5 v (iblk0 V c 1 t) (iblk0 V c 2 t)) ?_
  refine (View.readCov_unit_zero _ hz2 inb_S8x1024_S8x1024_0_0 _).trans ?_
  exact congrArg₂ k0_pay2 (rd (F := F) scM (Memref.isWhole_whole _) hz2 inb_S8x1024_S8x1024_0_0 _)
    (rd (F := F) (ms0 t) (hs0 t) hz3 inb_S8x512x1024_S8x512x1024_0_0_0 (iblk0 V c 0 t))

/-- The accumulator after a point: the block's sum over the sequence axis added to what it held, or to zero at a
    first point. -/
theorem accStep_eq (c : Dev nD) (t : Fin cfg0.N) (s : Vec F S8x1024 .f32) :
    accStep V c t s = k0_pay2 (if t.val % 8 = 0 then k0_pay1 (F := F) else s) (iblk0 V c 0 t) := by
  by_cases h1 : t.val % 8 = 0
  · rw [if_pos h1]; exact accStep_first V c t s h1
  · rw [if_neg h1]
    by_cases h2 : t.val % 8 = 7
    · exact accStep_last V c t s h1 h2
    · exact accStep_mid V c t s h1 h2

end Cert.KernelIdeal.Pool

end
-- ==== Proof.Alg.lean ====
import Idealize.ShloMosaic.PureOps.Ideal
import Idealize.ShloMosaic.PureOps.Ideal.Laws

noncomputable section

namespace Cert.Alg

open Idealize.ShloMosaic

/-! # The few facts about extended reals and float literals the two programs meet in

The literals are exact: 4096 and its reciprocal, 1024 (whose square root is 32) and 1/32, and minus infinity.
The one analytic fact is that the second entry of a two-entry softmax is the logistic function of the
difference of the entries, whatever finite number is subtracted from both entries first. -/

theorem ofBits_4096 : Ideal.ofBits .f32 0x45800000#32 = ((4096 : ℝ) : EReal) := by
  simp [Ideal.ofBits, Ideal.ieee, -EReal.coe_mul]; norm_num
theorem ofBits_inv4096 : Ideal.ofBits .f32 0x39800000#32 = ((1 / 4096 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_inv32 : Ideal.ofBits .f32 0x3D000000#32 = ((1 / 32 : ℝ) : EReal) := by
  simp [Ideal.ofBits, Ideal.ieee, -EReal.coe_mul]; norm_num
theorem ofBits_neg_inf : Ideal.ofBits .f32 0xFF800000#32 = (⊥ : EReal) := by
  simp [Ideal.ofBits, Ideal.ieee]

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- Dividing by 4096 is multiplying by its reciprocal, on every extended real. -/
theorem div_4096 (x : EReal) : Ideal.div x ((4096 : ℝ) : EReal) = x * ((1 / 4096 : ℝ) : EReal) :=
  Ideal.div_coe (by norm_num) x
/-- Dividing by 32 is multiplying by its reciprocal, on every extended real. -/
theorem div_32 (x : EReal) : Ideal.div x ((32 : ℝ) : EReal) = x * ((1 / 32 : ℝ) : EReal) :=
  Ideal.div_coe (by norm_num) x

/-- The second entry of the softmax of two reals, computed after subtracting any real from both, is the
    logistic function of their difference. -/
theorem softmax_pair (a b m : ℝ) :
    Ideal.div (Ideal.exp ((b : EReal) - (m : EReal)))
        ((0 : EReal) + (Ideal.exp ((a : EReal) - (m : EReal)) + Ideal.exp ((b : EReal) - (m : EReal))))
      = Ideal.logistic ((b : EReal) - (a : EReal)) := by
  rw [← EReal.coe_sub, ← EReal.coe_sub, ← EReal.coe_sub, Ideal.exp_coe, Ideal.exp_coe, Ideal.logistic_coe, zero_add,
    ← EReal.coe_add]
  have hpos : Real.exp (a - m) + Real.exp (b - m) ≠ 0 := (add_pos (Real.exp_pos _) (Real.exp_pos _)).ne'
  rw [Ideal.div_coe hpos, ← EReal.coe_mul]
  congr 1
  have h : Real.exp (a - m) + Real.exp (b - m) = Real.exp (b - m) * (1 + Real.exp (-(b - a))) := by
    rw [mul_add, mul_one, ← Real.exp_add, add_comm]; congr 2; ring
  rw [h, one_div, mul_inv, ← mul_assoc, mul_inv_cancel₀ (Real.exp_pos _).ne', one_mul]

/-- A one-bit flag widened to 32 bits and read as a signed integer is the flag read as an unsigned one. -/
theorem flag_conv (b : BitVec 1) :
    (FloatOps.sitofp (F := Ideal) .f32 (b.setWidth 32) : EReal) = FloatOps.uitofp (F := Ideal) .f32 b := by
  rcases BitVec.eq_zero_or_eq_one b with h | h <;> subst h <;> rfl

end Cert.Alg

end
-- ==== Proof.KIPayIdeal.lean ====
import proofs.«131445_j70824010711116_2_alg».proof.Proof.Gen.KernelIdeal.Skeleton
import proofs.«131445_j70824010711116_2_alg».proof.Proof.Alg
import Idealize.ShloMosaic.Lib.ValueIdx
import Idealize.ShloMosaic.Lib.Pipeline.Value
import Idealize.ShloMosaic.PureOps.Ideal.Laws

noncomputable section

namespace Cert.KernelIdeal.PoolValue

open Cert.KernelIdeal Cert.KernelIdeal.Gen Idealize.ShloMosaic Idealize.ShloMosaic.ValueIdx

/-! # The pooling body's arithmetic on extended reals, entry by entry

The accumulator update adds, at row `p` and feature `d`, the block's sum over its 512 sequence positions. At a
last point the pooled row is the accumulator scaled by 1/4096; its score against row `n` of a parameter table is
their inner product over the 1024 features scaled by 1/32; the probability is the logistic function of the
difference of the two tables' scores; and the correction at feature `d` is the sum, over the rows `n` whose
probability exceeds the threshold, of the second table's entry. -/

theorem pay1_apply (j : S8x1024.Idx) : k0_pay1 (F := Ideal) j = 0 := by
  unfold k0_pay1
  rw [shapeCast_self]
  exact Ideal.ofBits_zero_f32

theorem pay2_apply (s : FVec Ideal S8x1024 .f32) (x : FVec Ideal S8x512x1024 .f32) (p : Fin 8) (d : Fin 1024) :
    k0_pay2 (F := Ideal) s x (ix2 p d) = s (ix2 p d) + ∑ q : Fin 512, x (ix3 p q d) := by
  unfold k0_pay2
  rw [shapeCast_self]
  show s (ix2 p d) + multiReduction (F := Ideal) .add [1] S8x1024 x 0x00000000#32 reduces_S8x512x1024_S8x1024 (.inl rfl) rfl (ix2 p d) = _
  refine congrArg (s (ix2 p d) + ·) ?_
  refine (Ideal.multiReduction_add_single x 0x00000000#32 reduces_S8x512x1024_S8x1024 (.inl rfl) rfl (ix2 p d)).trans ?_
  show (∑ q : Fin 512, x ((reduces_S8x512x1024_S8x1024).lift (ix2 p d) q)) = _
  refine Finset.sum_congr rfl fun q _ => congrArg x ?_
  funext a; apply Fin.ext
  match a with
  | ⟨0, _⟩ => rfl
  | ⟨1, _⟩ => rfl
  | ⟨2, _⟩ => rfl

/-! ## The two matrix products at an entry -/

theorem lhs1_0 (i : S8x14.Idx) (q : dot_S8x1024_S1024x14_S8x14_1_0_0_1_n_n.contr.Idx) : (dot_S8x1024_S1024x14_S8x14_1_0_0_1_n_n.lhsIdx i q 0).val = (i 0).val := by
  unfold DotDims.lhsIdx
  rw [dif_neg (show ¬(0 : Fin S8x1024.rank) ∈ dot_S8x1024_S1024x14_S8x14_1_0_0_1_n_n.lhsBatch by decide), dif_pos (show (0 : Fin S8x1024.rank) ∈ dot_S8x1024_S1024x14_S8x14_1_0_0_1_n_n.lhsNonContracting by decide)]
  rfl
theorem lhs1_1 (i : S8x14.Idx) (q : dot_S8x1024_S1024x14_S8x14_1_0_0_1_n_n.contr.Idx) : (dot_S8x1024_S1024x14_S8x14_1_0_0_1_n_n.lhsIdx i q 1).val = (q ⟨0, by decide⟩).val :=
  dot_S8x1024_S1024x14_S8x14_1_0_0_1_n_n.lhsIdx_val_of_single rfl i q
theorem rhs1_0 (i : S8x14.Idx) (q : dot_S8x1024_S1024x14_S8x14_1_0_0_1_n_n.contr.Idx) : (dot_S8x1024_S1024x14_S8x14_1_0_0_1_n_n.rhsIdx i q 0).val = (q ⟨0, by decide⟩).val :=
  dot_S8x1024_S1024x14_S8x14_1_0_0_1_n_n.rhsIdx_val_of_single rfl i q
theorem rhs1_1 (i : S8x14.Idx) (q : dot_S8x1024_S1024x14_S8x14_1_0_0_1_n_n.contr.Idx) : (dot_S8x1024_S1024x14_S8x14_1_0_0_1_n_n.rhsIdx i q 1).val = (i 1).val := by
  unfold DotDims.rhsIdx
  rw [dif_neg (show ¬(1 : Fin S1024x14.rank) ∈ dot_S8x1024_S1024x14_S8x14_1_0_0_1_n_n.rhsBatch by decide), dif_pos (show (1 : Fin S1024x14.rank) ∈ dot_S8x1024_S1024x14_S8x14_1_0_0_1_n_n.rhsNonContracting by decide)]
  rfl

/-- A product with the transpose of a table: entry `(p, n)` is the inner product of row `p` with the table's row `n`. -/
theorem mm_T (l : FVec Ideal S8x1024 .f32) (r : FVec Ideal S14x1024 .f32) (p : Fin 8) (n : Fin 14) :
    FloatOps.matmul (F := Ideal) dot_S8x1024_S1024x14_S8x14_1_0_0_1_n_n (some .fp32) l (transpose S1024x14 [1, 0] r transposes_S14x1024_p1_0_S1024x14) (constant (F := Ideal) S8x14 .f32 0x00000000#32) (ix2 p n)
      = ∑ d : Fin 1024, l (ix2 p d) * r (ix2 n d) := by
  rw [Ideal.matmul_constant_zero_apply, ← Equiv.sum_comp (contrEquiv1 dot_S8x1024_S1024x14_S8x14_1_0_0_1_n_n 1024 rfl rfl).symm]
  refine Finset.sum_congr rfl fun d _ => ?_
  have hk := contrEquiv1_symm_val dot_S8x1024_S1024x14_S8x14_1_0_0_1_n_n 1024 rfl rfl d
  have el : dot_S8x1024_S1024x14_S8x14_1_0_0_1_n_n.lhsIdx (ix2 p n) ((contrEquiv1 dot_S8x1024_S1024x14_S8x14_1_0_0_1_n_n 1024 rfl rfl).symm d) = ix2 p d := funext fun a => Fin.ext (by
    match a with
    | ⟨0, _⟩ => exact lhs1_0 _ _
    | ⟨1, _⟩ => exact (lhs1_1 _ _).trans hk)
  have er : transpose S1024x14 [1, 0] r transposes_S14x1024_p1_0_S1024x14 (dot_S8x1024_S1024x14_S8x14_1_0_0_1_n_n.rhsIdx (ix2 p n) ((contrEquiv1 dot_S8x1024_S1024x14_S8x14_1_0_0_1_n_n 1024 rfl rfl).symm d)) = r (ix2 n d) :=
    transpose_apply [1, 0] r transposes_S14x1024_p1_0_S1024x14 _ (ix2 n d) (fun b => by
      match b with
      | ⟨0, _⟩ => exact ((rhs1_0 _ _).trans hk).symm
      | ⟨1, _⟩ => exact (rhs1_1 (ix2 p n) _).symm)
  rw [el, er]

theorem lhs2_0 (i : S8x1024.Idx) (q : dot_S8x14_S14x1024_S8x1024_1_0_0_1_n_n.contr.Idx) : (dot_S8x14_S14x1024_S8x1024_1_0_0_1_n_n.lhsIdx i q 0).val = (i 0).val := by
  unfold DotDims.lhsIdx
  rw [dif_neg (show ¬(0 : Fin S8x14.rank) ∈ dot_S8x14_S14x1024_S8x1024_1_0_0_1_n_n.lhsBatch by decide), dif_pos (show (0 : Fin S8x14.rank) ∈ dot_S8x14_S14x1024_S8x1024_1_0_0_1_n_n.lhsNonContracting by decide)]
  rfl
theorem lhs2_1 (i : S8x1024.Idx) (q : dot_S8x14_S14x1024_S8x1024_1_0_0_1_n_n.contr.Idx) : (dot_S8x14_S14x1024_S8x1024_1_0_0_1_n_n.lhsIdx i q 1).val = (q ⟨0, by decide⟩).val :=
  dot_S8x14_S14x1024_S8x1024_1_0_0_1_n_n.lhsIdx_val_of_single rfl i q
theorem rhs2_0 (i : S8x1024.Idx) (q : dot_S8x14_S14x1024_S8x1024_1_0_0_1_n_n.contr.Idx) : (dot_S8x14_S14x1024_S8x1024_1_0_0_1_n_n.rhsIdx i q 0).val = (q ⟨0, by decide⟩).val :=
  dot_S8x14_S14x1024_S8x1024_1_0_0_1_n_n.rhsIdx_val_of_single rfl i q
theorem rhs2_1 (i : S8x1024.Idx) (q : dot_S8x14_S14x1024_S8x1024_1_0_0_1_n_n.contr.Idx) : (dot_S8x14_S14x1024_S8x1024_1_0_0_1_n_n.rhsIdx i q 1).val = (i 1).val := by
  unfold DotDims.rhsIdx
  rw [dif_neg (show ¬(1 : Fin S14x1024.rank) ∈ dot_S8x14_S14x1024_S8x1024_1_0_0_1_n_n.rhsBatch by decide), dif_pos (show (1 : Fin S14x1024.rank) ∈ dot_S8x14_S14x1024_S8x1024_1_0_0_1_n_n.rhsNonContracting by decide)]
  rfl

/-- A product with a table: entry `(p, d)` is the sum over the table's rows. -/
theorem mm_plain (l : FVec Ideal S8x14 .f32) (r : FVec Ideal S14x1024 .f32) (p : Fin 8) (d : Fin 1024) :
    FloatOps.matmul (F := Ideal) dot_S8x14_S14x1024_S8x1024_1_0_0_1_n_n (some .fp32) l r (constant (F := Ideal) S8x1024 .f32 0x00000000#32) (ix2 p d)
      = ∑ n : Fin 14, l (ix2 p n) * r (ix2 n d) := by
  rw [Ideal.matmul_constant_zero_apply, ← Equiv.sum_comp (contrEquiv1 dot_S8x14_S14x1024_S8x1024_1_0_0_1_n_n 14 rfl rfl).symm]
  refine Finset.sum_congr rfl fun n _ => ?_
  have hk := contrEquiv1_symm_val dot_S8x14_S14x1024_S8x1024_1_0_0_1_n_n 14 rfl rfl n
  have el : dot_S8x14_S14x1024_S8x1024_1_0_0_1_n_n.lhsIdx (ix2 p d) ((contrEquiv1 dot_S8x14_S14x1024_S8x1024_1_0_0_1_n_n 14 rfl rfl).symm n) = ix2 p n := funext fun a => Fin.ext (by
    match a with
    | ⟨0, _⟩ => exact lhs2_0 _ _
    | ⟨1, _⟩ => exact (lhs2_1 _ _).trans hk)
  have er : dot_S8x14_S14x1024_S8x1024_1_0_0_1_n_n.rhsIdx (ix2 p d) ((contrEquiv1 dot_S8x14_S14x1024_S8x1024_1_0_0_1_n_n 14 rfl rfl).symm n) = ix2 n d := funext fun a => Fin.ext (by
    match a with
    | ⟨0, _⟩ => exact (rhs2_0 _ _).trans hk
    | ⟨1, _⟩ => exact rhs2_1 _ _)
  rw [el, er]

/-! ## The outputs at an entry -/

/-- The score of pooled row `p` (the accumulator scaled by 1/4096) against row `n` of a table, scaled by 1/32. -/
def score (a : FVec Ideal S8x1024 .f32) (mk : FVec Ideal S14x1024 .f32) (p : Fin 8) (n : Fin 14) : EReal :=
  (∑ d : Fin 1024, (a (ix2 p d) * ((1 / 4096 : ℝ) : EReal)) * mk (ix2 n d)) * ((1 / 32 : ℝ) : EReal)

theorem score_eq (a : FVec Ideal S8x1024 .f32) (mk : FVec Ideal S14x1024 .f32) (p : Fin 8) (n : Fin 14) :
    FloatOps.matmul (F := Ideal) dot_S8x1024_S1024x14_S8x14_1_0_0_1_n_n (some .fp32) (mulf a (broadcast S8x1024 (Scalar.ofBits (F := Ideal) .f32 0x39800000#32)))
        (transpose S1024x14 [1, 0] mk transposes_S14x1024_p1_0_S1024x14) (constant (F := Ideal) S8x14 .f32 0x00000000#32) (ix2 p n)
      * Scalar.ofBits (F := Ideal) .f32 0x3D000000#32 = score a mk p n := by
  unfold score
  refine congrArg₂ (· * ·) ?_ Alg.ofBits_inv32
  refine (mm_T _ _ p n).trans (Finset.sum_congr rfl fun d _ => congrArg (· * mk (ix2 n d)) ?_)
  exact congrArg (a (ix2 p d) * ·) Alg.ofBits_inv4096

theorem pay4_apply (a : FVec Ideal S8x1024 .f32) (m0 m1 : FVec Ideal S14x1024 .f32) (p : Fin 8) (n : Fin 14) :
    k0_pay4 (F := Ideal) a m0 m1 (ix2 p n) = Ideal.logistic (score a m1 p n - score a m0 p n) := by
  unfold k0_pay4 k0_pay3
  rw [shapeCast_self, shapeCast_self]
  exact congrArg Ideal.logistic (congrArg₂ (· - ·) (score_eq a m1 p n) (score_eq a m0 p n))

theorem pay5_apply (a : FVec Ideal S8x1024 .f32) (m0 m1 : FVec Ideal S14x1024 .f32) (p : Fin 8) (d : Fin 1024) :
    k0_pay5 (F := Ideal) a m0 m1 (ix2 p d)
      = ∑ n : Fin 14, FloatOps.uitofp (F := Ideal) .f32 (FloatOps.cmpf .ogt (k0_pay4 (F := Ideal) a m0 m1 (ix2 p n)) (Ideal.ofBits .f32 0x3E4CCCCD#32)) * m1 (ix2 n d) := by
  unfold k0_pay5 k0_pay3
  rw [shapeCast_self]
  refine (mm_plain _ _ p d).trans (Finset.sum_congr rfl fun n _ => congrArg (· * m1 (ix2 n d)) ?_)
  exact Alg.flag_conv _

end Cert.KernelIdeal.PoolValue

end
-- ==== Proof.RefSide.lean ====
import proofs.«131445_j70824010711116_2_alg».proof.Proof.Gen.ReferenceIdeal.Read
import proofs.«131445_j70824010711116_2_alg».proof.Proof.Alg
import Idealize.ShloMosaic.Lib.ValueIdx

noncomputable section

namespace Cert.RefSide

open Cert.ReferenceIdeal Cert.ReferenceIdeal.Gen Cert.ReferenceIdeal.Read Idealize.ShloMosaic Idealize.ShloMosaic.ValueIdx

/-! # The reference's probability at an entry

For finite inputs the reference's two scores of a batch row against a table row are real numbers, so is the maximum
it subtracts, and the second entry of its two-entry softmax is the logistic function of the scores' difference. -/

variable (z : (⟨S16x4096x1024, .f32⟩ : BufTy).Contents (Elt Ideal)) (M : (⟨S14x2x1024, .f32⟩ : BufTy).Contents (Elt Ideal))

/-- The pooled row scaled by 1/4096, its inner product with row `n`, state `k` of the table, scaled by 1/32. -/
def sc (r : Fin 16) (n : Fin 14) (k : Fin 2) : EReal :=
  (∑ d : Fin 1024, ((∑ s : Fin 4096, z (ix3 r s d)) * ((1 / 4096 : ℝ) : EReal)) * M (ix3 n k d)) * ((1 / 32 : ℝ) : EReal)

/-- Sums and products of real numbers are real. -/
theorem real_sum {ι : Type} (S : Finset ι) (f : ι → EReal) (h : ∀ i ∈ S, ∃ x : ℝ, f i = x) : ∃ x : ℝ, ∑ i ∈ S, f i = x := by
  classical
  induction S using Finset.induction_on with
  | empty => exact ⟨0, by simp⟩
  | insert a S ha ih =>
    obtain ⟨x, hx⟩ := h a (Finset.mem_insert_self a S)
    obtain ⟨y, hy⟩ := ih fun i hi => h i (Finset.mem_insert_of_mem hi)
    exact ⟨x + y, by rw [Finset.sum_insert ha, hx, hy, EReal.coe_add]⟩

theorem sc_real (hz : ∀ i, ∃ x : ℝ, z i = x) (hM : ∀ i, ∃ x : ℝ, M i = x) (r : Fin 16) (n : Fin 14) (k : Fin 2) :
    ∃ x : ℝ, sc z M r n k = x := by
  unfold sc
  obtain ⟨y, hy⟩ := real_sum Finset.univ (fun d : Fin 1024 => ((∑ s : Fin 4096, z (ix3 r s d)) * ((1 / 4096 : ℝ) : EReal)) * M (ix3 n k d)) (fun d _ => by
    obtain ⟨a, ha⟩ := real_sum Finset.univ (fun s : Fin 4096 => z (ix3 r s d)) (fun s _ => hz _)
    obtain ⟨b, hb⟩ := hM (ix3 n k d)
    exact ⟨a * (1 / 4096) * b, by rw [ha, hb, EReal.coe_mul, EReal.coe_mul]⟩)
  exact ⟨y * (1 / 32), by rw [hy, EReal.coe_mul]⟩

/-- The reference's scaled score at `(r, n, k)`. -/
theorem v6_apply (r : Fin 16) (n : Fin 14) (k : Fin 2) :
    val_main_v6 (F := Ideal) z M (ix3 r n k) = sc z M r n k := by
  rw [val_main_v6_apply, val_main_v3_apply, val_main_v5_apply, val_main_v4_apply, val_main_cst_1_apply]
  show Ideal.div _ (Ideal.sqrt (Ideal.ofBits .f32 0x44800000#32)) = _
  rw [Alg.ofBits_1024, Alg.sqrt_1024, Alg.div_32]
  unfold sc
  refine congrArg (· * ((1 / 32 : ℝ) : EReal)) (Finset.sum_congr rfl fun d _ => ?_)
  rw [val_main_v2_apply, val_main_v0_apply, val_main_v1_apply, val_main_cst_0_apply, val_main_cst_apply]
  show Ideal.div (Ideal.ofBits .f32 0x00000000#32 + _) (Ideal.ofBits .f32 0x45800000#32) * _ = _
  rw [Ideal.ofBits_zero_f32, zero_add, Alg.ofBits_4096, Alg.div_4096]
  refine congrArg₂ (· * ·) (congrArg (· * ((1 / 4096 : ℝ) : EReal)) (Finset.sum_congr rfl fun s _ => congrArg z ?_)) (congrArg M ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
    | ⟨2, _⟩ => rfl

/-! ## The maximum the softmax subtracts -/

theorem lift_eq (r : Fin 16) (n : Fin 14) (k : Fin 2) :
    (by decide : S16x14x2.Reduces [2] S16x14).lift (ix2 r n) k = ix3 r n k := by
  funext a; apply Fin.ext
  match a with
  | ⟨0, _⟩ => rfl
  | ⟨1, _⟩ => rfl
  | ⟨2, _⟩ => rfl

theorem v7_apply (r : Fin 16) (n : Fin 14) :
    val_main_v7 (F := Ideal) z M (ix2 r n)
      = (Finset.univ : Finset (Fin 2)).fold max (⊥ : EReal) (fun k => sc z M r n k) := by
  unfold val_main_v7
  show Host.reduce (max : EReal → EReal → EReal) (val_main_v6 (F := Ideal) z M) (val_main_cst_2 (F := Ideal)) reducesTo_S16x14x2_S16x14_d2 h_S_ (ix2 r n) = _
  rw [Host.reduce_eq_fold_single (max : EReal → EReal → EReal) _ _ reducesTo_S16x14x2_S16x14_d2 (by decide) h_S_ (ix2 r n)]
  show (Finset.univ : Finset (Fin 2)).fold max (Ideal.ofBits .f32 0xFF800000#32) _ = _
  rw [Alg.ofBits_neg_inf]
  refine congrArg (fun f => Finset.fold max (⊥ : EReal) f (Finset.univ : Finset (Fin 2))) (funext fun k => ?_)
  show val_main_v6 (F := Ideal) z M ((by decide : S16x14x2.Reduces [2] S16x14).lift (ix2 r n) k) = _
  exact (congrArg (val_main_v6 (F := Ideal) z M) (lift_eq r n k)).trans (v6_apply z M r n k)

/-- The maximum is a real number when the two scores are. -/
theorem v9_real (hz : ∀ i, ∃ x : ℝ, z i = x) (hM : ∀ i, ∃ x : ℝ, M i = x) (r : Fin 16) (n : Fin 14) :
    ∃ x : ℝ, val_main_v9 (F := Ideal) z M (ix2 r n) = x := by
  obtain ⟨a0, h0⟩ := sc_real z M hz hM r n 0
  obtain ⟨a1, h1⟩ := sc_real z M hz hM r n 1
  rw [val_main_v9_apply, v7_apply]
  show ∃ x : ℝ, max (val_main_v8 (F := Ideal) (ix2 r n)) _ = x
  set mx := max (val_main_v8 (F := Ideal) (ix2 r n)) ((Finset.univ : Finset (Fin 2)).fold max (⊥ : EReal) (fun k => sc z M r n k)) with hmx
  have hle : mx ≤ ((max a0 a1 : ℝ) : EReal) := by
    refine max_le ?_ ((Finset.fold_max_le _).mpr ⟨bot_le, fun k _ => ?_⟩)
    · rw [val_main_v8_apply, val_main_cst_3_apply]
      show Ideal.ofBits .f32 0xFF800000#32 ≤ _
      rw [Alg.ofBits_neg_inf]; exact bot_le
    · match k with
      | ⟨0, _⟩ => show sc z M r n 0 ≤ _; rw [h0]; exact EReal.coe_le_coe_iff.mpr (le_max_left _ _)
      | ⟨1, _⟩ => show sc z M r n 1 ≤ _; rw [h1]; exact EReal.coe_le_coe_iff.mpr (le_max_right _ _)
  have hge : ((a0 : ℝ) : EReal) ≤ mx := by
    refine le_trans ?_ (le_max_right _ _)
    exact (Finset.le_fold_max _).mpr (Or.inr ⟨0, Finset.mem_univ _, by show _ ≤ sc z M r n 0; rw [h0]⟩)
  have hne_top : mx ≠ ⊤ := fun h => by rw [h] at hle; exact absurd (top_le_iff.mp hle) (EReal.coe_ne_top _)
  have hne_bot : mx ≠ ⊥ := fun h => by rw [h] at hge; exact absurd (le_bot_iff.mp hge) (EReal.coe_ne_bot _)
  exact ⟨mx.toReal, (EReal.coe_toReal hne_top hne_bot).symm⟩

/-! ## The softmax's second entry -/

theorem v11_apply (r : Fin 16) (n : Fin 14) (k : Fin 2) :
    val_main_v11 (F := Ideal) z M (ix3 r n k) = val_main_v9 (F := Ideal) z M (ix2 r n) := by
  rw [val_main_v11_apply, val_main_v10_apply]
  refine congrArg _ ?_
  funext a; apply Fin.ext
  match a with
  | ⟨0, _⟩ => rfl
  | ⟨1, _⟩ => rfl

theorem v13_apply (r : Fin 16) (n : Fin 14) (k : Fin 2) :
    val_main_v13 (F := Ideal) z M (ix3 r n k) = Ideal.exp (sc z M r n k - val_main_v9 (F := Ideal) z M (ix2 r n)) := by
  rw [val_main_v13_apply, val_main_v12_apply, v6_apply, v11_apply]
  rfl

theorem v16_apply (r : Fin 16) (n : Fin 14) (k : Fin 2) :
    val_main_v16 (F := Ideal) z M (ix3 r n k)
      = 0 + (Ideal.exp (sc z M r n 0 - val_main_v9 (F := Ideal) z M (ix2 r n)) + Ideal.exp (sc z M r n 1 - val_main_v9 (F := Ideal) z M (ix2 r n))) := by
  rw [val_main_v16_apply, val_main_v15_apply, val_main_v14_apply, val_main_cst_4_apply, Fin.sum_univ_two]
  show Ideal.ofBits .f32 0x00000000#32 + _ = _
  rw [Ideal.ofBits_zero_f32]
  have e0 : idx_main_v14 (idx_main_v15 (idx_main_v16 (ix3 r n k))) 0 = ix3 r n 0 := by
    funext a; apply Fin.ext
    match a with
    | ⟨0, _⟩ => rfl
    | ⟨1, _⟩ => rfl
    | ⟨2, _⟩ => rfl
  have e1 : idx_main_v14 (idx_main_v15 (idx_main_v16 (ix3 r n k))) 1 = ix3 r n 1 := by
    funext a; apply Fin.ext
    match a with
    | ⟨0, _⟩ => rfl
    | ⟨1, _⟩ => rfl
    | ⟨2, _⟩ => rfl
  rw [e0, e1, v13_apply, v13_apply]

/-- THE REFERENCE'S PROBABILITY: for finite inputs, the logistic function of the difference of the two scores. -/
theorem v19_apply (hz : ∀ i, ∃ x : ℝ, z i = x) (hM : ∀ i, ∃ x : ℝ, M i = x) (r : Fin 16) (n : Fin 14) :
    val_main_v19 (F := Ideal) z M (ix2 r n) = Ideal.logistic (sc z M r n 1 - sc z M r n 0) := by
  rw [val_main_v19_apply, val_main_v18_apply]
  have e : idx_main_v18 (idx_main_v19 (ix2 r n)) = ix3 r n 1 := by
    funext a; apply Fin.ext
    have hr : r.val < 16 := r.isLt
    have hn : n.val < 14 := n.isLt
    match a with
    | ⟨0, _⟩ => show (r.val * 14 + n.val) / 14 = r.val; omega
    | ⟨1, _⟩ => show (r.val * 14 + n.val) / 1 % 14 = n.val; omega
    | ⟨2, _⟩ => rfl
  rw [e, val_main_v17_apply, v13_apply, v16_apply]
  obtain ⟨a0, h0⟩ := sc_real z M hz hM r n 0
  obtain ⟨a1, h1⟩ := sc_real z M hz hM r n 1
  obtain ⟨mx, hmx⟩ := v9_real z M hz hM r n
  rw [h0, h1, hmx]
  exact Alg.softmax_pair a0 a1 mx

end Cert.RefSide

end
-- ==== Proof.KIFinalA.lean ====
import proofs.«131445_j70824010711116_2_alg».proof.Proof.KIRun
import proofs.«131445_j70824010711116_2_alg».proof.Proof.KIPieces
import proofs.«131445_j70824010711116_2_alg».proof.Proof.KIPayIdeal
import proofs.«131445_j70824010711116_2_alg».proof.Proof.RefSide

set_option maxRecDepth 16384

noncomputable section

namespace Cert.KernelIdeal.Final

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.KernelIdeal.Pool Cert.KernelIdeal.Add Cert.KernelIdeal.Run Cert.KernelIdeal.PoolValue
open Idealize.ShloMosaic.ValueIdx

variable (m : (ℓ : Loc nD τ sig) → Buf (Elt Ideal) ℓ) (ρ : Dev nD → PrngReg)

/-! # What the pooling region finds and what its accumulator holds

The first stretch of host operations leaves the big array alone and cuts the parameter array into its two
tables. A grid point `t` is batch block `t / 8` and sequence block `t % 8`. After the point the accumulator's
entry `(p, d)` is the sum of the big array's row `8 (t / 8) + p`, feature `d`, over the sequence positions below
`512 (t % 8 + 1)`. -/

/-- The index maps over the grid. -/
theorem idx0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

section Blocks
variable (V : (c : Dev nD) → (b : Ref sig .tc) → Buf (Elt Ideal) ((c : Thread nD τ).loc b))

/-- An entry of the big array's block at point `t`. -/
theorem blk0_0 (c : Dev nD) (t : Fin cfg0.N) (y : S8x512x1024.Idx) (i : S16x4096x1024.Idx)
    (h0 : (i 0).val = t.val / 8 * 8 + (y 0).val) (h1 : (i 1).val = t.val % 8 * 512 + (y 1).val) (h2 : (i 2).val = (y 2).val) :
    iblk0 V c 0 t y = V c main_arg0 i := by
  obtain ⟨e0, e1, e2, -⟩ := idx0 t
  show V c main_arg0 (((cfg0.win 0).blk t).view.emb y) = V c main_arg0 i
  refine congrArg (V c main_arg0) (funext fun a => Fin.ext ?_)
  match a with
  | ⟨0, _⟩ => show win0_0.index t (0 : Fin 3) * 8 + 1 * (y 0).val = (i 0).val; omega
  | ⟨1, _⟩ => show win0_0.index t (1 : Fin 3) * 512 + 1 * (y 1).val = (i 1).val; omega
  | ⟨2, _⟩ => show win0_0.index t (2 : Fin 3) * 1024 + 1 * (y 2).val = (i 2).val; omega

/-- Each table is staged whole. -/
theorem blk0_1 (c : Dev nD) (t : Fin cfg0.N) (y : S14x1024.Idx) : iblk0 V c 1 t y = V c main_v1 y := by
  obtain ⟨-, -, -, e0, e1, -⟩ := idx0 t
  show V c main_v1 (((cfg0.win 1).blk t).view.emb y) = V c main_v1 y
  refine congrArg (V c main_v1) (funext fun a => Fin.ext ?_)
  match a with
  | ⟨0, _⟩ => show win0_1.index t (0 : Fin 2) * 14 + 1 * (y 0).val = (y 0).val; omega
  | ⟨1, _⟩ => show win0_1.index t (1 : Fin 2) * 1024 + 1 * (y 1).val = (y 1).val; omega
theorem blk0_2 (c : Dev nD) (t : Fin cfg0.N) (y : S14x1024.Idx) : iblk0 V c 2 t y = V c main_v3 y := by
  obtain ⟨-, -, -, -, -, e0, e1, -⟩ := idx0 t
  show V c main_v3 (((cfg0.win 2).blk t).view.emb y) = V c main_v3 y
  refine congrArg (V c main_v3) (funext fun a => Fin.ext ?_)
  match a with
  | ⟨0, _⟩ => show win0_2.index t (0 : Fin 2) * 14 + 1 * (y 0).val = (y 0).val; omega
  | ⟨1, _⟩ => show win0_2.index t (1 : Fin 2) * 1024 + 1 * (y 1).val = (y 1).val; omega

/-! ## The accumulator in closed form -/

variable (z : S16x4096x1024.Idx → EReal)

/-- Row `r`, feature `d` of the big array along the sequence axis, as a sequence of extended reals. -/
def zrow (r : Fin 16) (d : Fin 1024) (s : ℕ) : EReal := if h : s < 4096 then z (ix3 r ⟨s, h⟩ d) else 0

theorem blkSum (c : Dev nD) (hV : ∀ i, V c main_arg0 i = z i) (t : Fin cfg0.N) (p : Fin 8) (d : Fin 1024) (r : Fin 16)
    (hr : r.val = t.val / 8 * 8 + p.val) (x : FVec Ideal S8x512x1024 .f32) (hx : x = iblk0 V c 0 t) :
    ∑ q : Fin 512, x (ix3 p q d) = ∑ s ∈ Finset.Ico (512 * (t.val % 8)) (512 * (t.val % 8 + 1)), zrow z r d s := by
  subst hx
  rw [Finset.sum_Ico_eq_sum_range, show 512 * (t.val % 8 + 1) - 512 * (t.val % 8) = 512 by omega, Finset.sum_range]
  refine Finset.sum_congr rfl fun q _ => ?_
  have hq : q.val < 512 := q.isLt
  have hs : 512 * (t.val % 8) + q.val < 4096 := by omega
  rw [blk0_0 V c t (ix3 p q d) (ix3 r ⟨512 * (t.val % 8) + q.val, hs⟩ d) hr (by show 512 * (t.val % 8) + q.val = t.val % 8 * 512 + q.val; omega) rfl, hV]
  unfold zrow; rw [dif_pos hs]

theorem accAt_closed (c : Dev nD) (hV : ∀ i, V c main_arg0 i = z i) :
    ∀ (n : ℕ) (hn : n < cfg0.N) (p : Fin 8) (d : Fin 1024) (r : Fin 16), r.val = n / 8 * 8 + p.val →
      accAt V c n hn (ix2 p d) = ∑ s ∈ Finset.range (512 * (n % 8 + 1)), zrow z r d s := by
  intro n
  induction n with
  | zero =>
    intro hn p d r hr
    show accStep V c ⟨0, hn⟩ _ (ix2 p d) = _
    rw [accStep_eq, if_pos (by rfl), pay2_apply, pay1_apply, zero_add, blkSum V z c hV ⟨0, hn⟩ p d r hr _ rfl]
    show ∑ s ∈ Finset.Ico (512 * (0 % 8)) (512 * (0 % 8 + 1)), zrow z r d s = _
    rw [Finset.range_eq_Ico]
  | succ n ih =>
    intro hn p d r hr
    show accStep V c ⟨n + 1, hn⟩ (accAt V c n (Nat.lt_of_succ_lt hn)) (ix2 p d) = _
    rw [accStep_eq, pay2_apply, blkSum V z c hV ⟨n + 1, hn⟩ p d r hr _ rfl]
    show _ + ∑ s ∈ Finset.Ico (512 * ((n + 1) % 8)) (512 * ((n + 1) % 8 + 1)), zrow z r d s = _
    by_cases h0 : (n + 1) % 8 = 0
    · rw [if_pos h0, pay1_apply, zero_add, h0, Finset.range_eq_Ico]
    · rw [if_neg h0, ih (Nat.lt_of_succ_lt hn) p d r (by omega), show n % 8 + 1 = (n + 1) % 8 by omega]
      exact Finset.sum_range_add_sum_Ico _ (by omega)

/-- After a row's last point the accumulator holds the row's whole sum over the sequence axis. -/
theorem accAt_last (c : Dev nD) (hV : ∀ i, V c main_arg0 i = z i) (t : Fin cfg0.N) (h7 : t.val % 8 = 7) (p : Fin 8) (d : Fin 1024)
    (r : Fin 16) (hr : r.val = t.val / 8 * 8 + p.val) :
    accAt V c t.val t.isLt (ix2 p d) = ∑ s : Fin 4096, z (ix3 r s d) := by
  rw [accAt_closed V z c hV t.val t.isLt p d r hr, h7, show 512 * (7 + 1) = 4096 by norm_num, Finset.sum_range]
  refine Finset.sum_congr rfl fun s _ => ?_
  unfold zrow; rw [dif_pos s.isLt]

end Blocks

end Cert.KernelIdeal.Final

end
-- ==== Proof.KIFinalB.lean ====
import proofs.«131445_j70824010711116_2_alg».proof.Proof.KIFinalA
import Idealize.ShloMosaic.Lib.StableHlo.Run

set_option maxRecDepth 16384

noncomputable section

namespace Cert.KernelIdeal.Final

open Idealize.ShloMosaic Idealize.ShloMosaic.TcCoe Idealize.ShloMosaic.Tactic Idealize.ShloMosaic.StableHlo
open Idealize.SL.Sem
open Idealize.ShloMosaic.Pipeline (Dat Cfg Window)
open Cert.KernelIdeal Cert.KernelIdeal.Gen Cert.KernelIdeal.Pool Cert.KernelIdeal.Add Cert.KernelIdeal.Run Cert.KernelIdeal.PoolValue
open Idealize.ShloMosaic.ValueIdx
open Cert.ReferenceIdeal.Read (val_main_v19 val_main_v25 val_main_v28)

variable (m : (ℓ : Loc nD τ sig) → Buf (Elt Ideal) ℓ) (ρ : Dev nD → PrngReg)

/-! # What the pooling region leaves in its two result arrays

Each row block's last point writes back the probabilities and the correction computed from the whole row sums;
the two row blocks' write-backs cover the arrays. For finite inputs the probabilities are the reference's, and
then the corrections are the reference's too (the same threshold, the same table, the same sum). -/

/-- The two argument arrays as functions of an index. -/
abbrev zA (c : Dev nD) : (⟨Cert.ReferenceIdeal.S16x4096x1024, .f32⟩ : BufTy).Contents (Elt Ideal) := m ((c : Thread nD τ).loc main_arg0)
abbrev MA (c : Dev nD) : (⟨Cert.ReferenceIdeal.S14x2x1024, .f32⟩ : BufTy).Contents (Elt Ideal) := m ((c : Thread nD τ).loc main_arg1)

theorem V1_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))).trans rfl

theorem V1_v1 (c : Dev nD) :
    (V1 m ρ c main_v1 : S14x1024.Idx → EReal)
      = shapeCast S14x1024 (extractStridedSlice S14x1x1024 ![0, 0, 0] (m ((c : Thread nD τ).loc main_arg1) : S14x2x1024.Idx → EReal) slices_S14x2x1024_S14x1x1024_0_0_0) shapeCasts_S14x1x1024_S14x1024 := by
  dsimp only [V1, W1, W0, hostOps0]; after_results; rfl
theorem V1_v3 (c : Dev nD) :
    (V1 m ρ c main_v3 : S14x1024.Idx → EReal)
      = shapeCast S14x1024 (extractStridedSlice S14x1x1024 ![0, 1, 0] (m ((c : Thread nD τ).loc main_arg1) : S14x2x1024.Idx → EReal) slices_S14x2x1024_S14x1x1024_0_1_0) shapeCasts_S14x1x1024_S14x1024 := by
  dsimp only [V1, W1, W0, hostOps0]; after_results; rfl

theorem table (k : Fin 2) (x : S14x2x1024.Idx → EReal) (h : S14x2x1024.Slices ![0, k.val, 0] S14x1x1024) (n : Fin 14) (d : Fin 1024) :
    shapeCast S14x1024 (extractStridedSlice S14x1x1024 ![0, k.val, 0] x h) shapeCasts_S14x1x1024_S14x1024 (ix2 n d) = x (ix3 n k d) := by
  refine (shapeCast_apply _ shapeCasts_S14x1x1024_S14x1024 (ix2 n d) (ix3 n (0 : Fin 1) d) ?_).trans ?_
  · rewrite [Shape.rowMajor_val_three, Shape.rowMajor_val_two]
    show (n.val * 1 + 0) * 1024 + d.val = n.val * 1024 + d.val; omega
  · exact extractStridedSlice_apply ![0, k.val, 0] x h (ix3 n (0 : Fin 1) d) (ix3 n k d) (fun a => match a with
      | ⟨0, _⟩ => by show n.val = 0 + n.val; omega
      | ⟨1, _⟩ => by show k.val = k.val + 0; omega
      | ⟨2, _⟩ => by show d.val = 0 + d.val; omega)

theorem table0 (c : Dev nD) (n : Fin 14) (d : Fin 1024) : V1 m ρ c main_v1 (ix2 n d) = MA m c (ix3 n 0 d) :=
  (congrFun (V1_v1 m ρ c) (ix2 n d)).trans (table 0 _ slices_S14x2x1024_S14x1x1024_0_0_0 n d)
theorem table1 (c : Dev nD) (n : Fin 14) (d : Fin 1024) : V1 m ρ c main_v3 (ix2 n d) = MA m c (ix3 n 1 d) :=
  (congrFun (V1_v3 m ρ c) (ix2 n d)).trans (table 1 _ slices_S14x2x1024_S14x1x1024_0_1_0 n d)

end Cert.KernelIdeal.Final

end
-- ==== Proof.KIFinalC.lean ====
import proofs.«131445_j70824010711116_2_alg».proof.Proof.KIFinalB

set_option maxRecDepth 16384

noncomputable section

namespace Cert.KernelIdeal.Final

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.KernelIdeal.Pool Cert.KernelIdeal.Add Cert.KernelIdeal.Run Cert.KernelIdeal.PoolValue
open Idealize.ShloMosaic.ValueIdx
open Cert.ReferenceIdeal.Read

variable (m : (ℓ : Loc nD τ sig) → Buf (Elt Ideal) ℓ) (ρ : Dev nD → PrngReg)

/-- At a row block's last point the value the outputs are computed from is the accumulator after the point. -/
theorem acc_now (c : Dev nD) (t : Fin cfg0.N) (h7 : t.val % 8 = 7) :
    k0_pay2 (F := Ideal) (accBefore (V1 m ρ) c t) (iblk0 (V1 m ρ) c 0 t) = accAt (V1 m ρ) c t.val t.isLt := by
  rw [accAt_eq, accStep_eq, if_neg (by omega)]

/-- The kernel's score against either table is the reference's. -/
theorem score0 (c : Dev nD) (t : Fin cfg0.N) (h7 : t.val % 8 = 7) (p : Fin 8) (n : Fin 14) (r : Fin 16) (hr : r.val = t.val / 8 * 8 + p.val) :
    score (accAt (V1 m ρ) c t.val t.isLt) (iblk0 (V1 m ρ) c 1 t) p n = Cert.RefSide.sc (zA m c) (MA m c) r n 0 := by
  unfold score Cert.RefSide.sc
  refine congrArg (· * ((1 / 32 : ℝ) : EReal)) (Finset.sum_congr rfl fun d _ => congrArg₂ (· * ·) (congrArg (· * ((1 / 4096 : ℝ) : EReal)) ?_) ?_)
  · exact accAt_last (V1 m ρ) (zA m c) c (fun i => congrFun (V1_arg0 m ρ c) i) t h7 p d r hr
  · exact (blk0_1 (V1 m ρ) c t (ix2 n d)).trans (table0 m ρ c n d)
theorem score1 (c : Dev nD) (t : Fin cfg0.N) (h7 : t.val % 8 = 7) (p : Fin 8) (n : Fin 14) (r : Fin 16) (hr : r.val = t.val / 8 * 8 + p.val) :
    score (accAt (V1 m ρ) c t.val t.isLt) (iblk0 (V1 m ρ) c 2 t) p n = Cert.RefSide.sc (zA m c) (MA m c) r n 1 := by
  unfold score Cert.RefSide.sc
  refine congrArg (· * ((1 / 32 : ℝ) : EReal)) (Finset.sum_congr rfl fun d _ => congrArg₂ (· * ·) (congrArg (· * ((1 / 4096 : ℝ) : EReal)) ?_) ?_)
  · exact accAt_last (V1 m ρ) (zA m c) c (fun i => congrFun (V1_arg0 m ρ c) i) t h7 p d r hr
  · exact (blk0_2 (V1 m ρ) c t (ix2 n d)).trans (table1 m ρ c n d)

section Finite

/-- THE PROBABILITIES a last point computes are the reference's. -/
theorem mlc_eq (hz : ∀ c i, ∃ x : ℝ, zA m c i = x) (hM : ∀ c i, ∃ x : ℝ, MA m c i = x) (c : Dev nD) (t : Fin cfg0.N) (h7 : t.val % 8 = 7) (p : Fin 8) (n : Fin 14) (r : Fin 16) (hr : r.val = t.val / 8 * 8 + p.val) :
    k0_pay4 (F := Ideal) (accAt (V1 m ρ) c t.val t.isLt) (iblk0 (V1 m ρ) c 1 t) (iblk0 (V1 m ρ) c 2 t) (ix2 p n)
      = val_main_v19 (F := Ideal) (zA m c) (MA m c) (ix2 r n) := by
  rw [pay4_apply, score0 m ρ c t h7 p n r hr, score1 m ρ c t h7 p n r hr, Cert.RefSide.v19_apply (zA m c) (MA m c) (hz c) (hM c) r n]

/-! ## The probabilities' array -/

theorem emb4 (t : Fin cfg0.N) (p : Fin 8) (n : Fin 14) (r : Fin 16) (hr : r.val = t.val / 8 * 8 + p.val) :
    ((cfg0.win 4).blk t).view.emb (ix2 p n) = (ix2 r n : S16x14.Idx) := by
  obtain ⟨-, -, -, -, -, -, -, -, -, e0, e1⟩ := idx0 t
  funext a; apply Fin.ext
  match a with
  | ⟨0, _⟩ => show win0_4.index t (0 : Fin 2) * 8 + 1 * p.val = r.val; omega
  | ⟨1, _⟩ => show win0_4.index t (1 : Fin 2) * 14 + 1 * n.val = n.val; omega

theorem flushed4_eq (hz : ∀ c i, ∃ x : ℝ, zA m c i = x) (hM : ∀ c i, ∃ x : ℝ, MA m c i = x) (c : Dev nD) (t : Fin cfg0.N) (hf : (cfg0.win 4).flush t = true) :
    (dat0 (V1 m ρ) c).flushed 4 t = ((cfg0.win 4).blk t).view.read (Elt Ideal) (val_main_v19 (F := Ideal) (zA m c) (MA m c)) := by
  have h7 : t.val % 8 = 7 := (flush0_4 t).mp hf
  have hN : t.val < 16 := lt_of_lt_of_eq t.isLt (show cfg0.N = 16 from N_0)
  show (cfg0.win 4).cut (grid0.coords t) ((dat0 (V1 m ρ) c).after 4 t) = _
  rw [after0_4, out4_last _ c t h7, acc_now m ρ c t h7]
  funext y
  obtain ⟨p, n, rfl⟩ : ∃ (p : Fin 8) (n : Fin 14), y = ix2 p n := ⟨y 0, y 1, eq_ix2 y⟩
  have hp : p.val < 8 := p.isLt
  let r : Fin 16 := ⟨t.val / 8 * 8 + p.val, by omega⟩
  show k0_pay4 (F := Ideal) _ _ _ (ix2 p n) = val_main_v19 (F := Ideal) (zA m c) (MA m c) (((cfg0.win 4).blk t).view.emb (ix2 p n))
  rw [emb4 t p n r rfl]
  exact mlc_eq m ρ hz hM c t h7 p n r rfl

theorem mem_blk4 (t : Fin cfg0.N) (i : S16x14.Idx) :
    i ∈ ((cfg0.win 4).blk t).view.set ↔ ∀ a : Fin 2, win0_4.index t a * S8x14.size a ≤ (i a).val ∧ (i a).val < win0_4.index t a * S8x14.size a + S8x14.size a := by
  show i ∈ ((View.whole main_v4_1).slice (win0_4.rect t)).set ↔ _
  rw [View.set_slice_whole, Rect.mem_set_unit]
  exact Iff.rfl

theorem cover4 (i : S16x14.Idx) : ∃ t : Fin cfg0.N, (cfg0.win 4).flush t = true ∧ i ∈ ((cfg0.win 4).blk t).view.set := by
  have hi0 : (i 0).val < 16 := (i 0).isLt
  have hi1 : (i 1).val < 14 := (i 1).isLt
  let t : Fin cfg0.N := ⟨(i 0).val / 8 * 8 + 7, by rw [show cfg0.N = 16 from N_0]; omega⟩
  have ht : t.val = (i 0).val / 8 * 8 + 7 := rfl
  refine ⟨t, (flush0_4 t).mpr (by omega), ?_⟩
  rw [mem_blk4]
  obtain ⟨-, -, -, -, -, -, -, -, -, e0, e1⟩ := idx0 t
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 14 ≤ (i 1).val ∧ (i 1).val < win0_4.index t (1 : Fin 2) * 14 + 14; omega

/-- The probabilities' array after the region is the reference's. -/
theorem final4 (hz : ∀ c i, ∃ x : ℝ, zA m c i = x) (hM : ∀ c i, ∃ x : ℝ, MA m c i = x) (c : Dev nD) : (dat0 (V1 m ρ) c).arrAt 4 cfg0.N = val_main_v19 (F := Ideal) (zA m c) (MA m c) :=
  (dat0 (V1 m ρ) c).arrAt_eq_of_cover 4 _ (fun t hf => flushed4_eq m ρ hz hM c t hf) cover4

/-! ## The corrections' array -/

theorem emb3 (t : Fin cfg0.N) (p : Fin 8) (d : Fin 1024) (r : Fin 16) (hr : r.val = t.val / 8 * 8 + p.val) :
    ((cfg0.win 3).blk t).view.emb (ix2 p d) = (ix2 r d : S16x1024.Idx) := by
  obtain ⟨-, -, -, -, -, -, -, e0, e1, -⟩ := idx0 t
  funext a; apply Fin.ext
  match a with
  | ⟨0, _⟩ => show win0_3.index t (0 : Fin 2) * 8 + 1 * p.val = r.val; omega
  | ⟨1, _⟩ => show win0_3.index t (1 : Fin 2) * 1024 + 1 * d.val = d.val; omega

/-- The reference's correction at an entry: the sum over the table rows whose probability exceeds the threshold. -/
theorem v25_at (z : (⟨Cert.ReferenceIdeal.S16x4096x1024, .f32⟩ : BufTy).Contents (Elt Ideal)) (M : (⟨Cert.ReferenceIdeal.S14x2x1024, .f32⟩ : BufTy).Contents (Elt Ideal))
    (r : Fin 16) (d : Fin 1024) :
    val_main_v25 (F := Ideal) z M (ix2 r d)
      = ∑ n : Fin 14, FloatOps.uitofp (F := Ideal) .f32 (FloatOps.cmpf .ogt (val_main_v19 (F := Ideal) z M (ix2 r n)) (Ideal.ofBits .f32 0x3E4CCCCD#32)) * M (ix3 n 1 d) := by
  rw [val_main_v25_apply]
  refine Finset.sum_congr rfl fun n _ => congrArg₂ (· * ·) ?_ ?_
  · rw [val_main_v22_apply, val_main_v21_apply, val_main_v20_apply, val_main_cst_5_apply]
    refine congrArg (fun v => FloatOps.uitofp (F := Ideal) .f32 (FloatOps.cmpf .ogt v _)) (congrArg _ ?_)
    funext a; apply Fin.ext
    match a with
    | ⟨0, _⟩ => rfl
    | ⟨1, _⟩ => rfl
  · rw [val_main_v24_apply, val_main_v23_apply]
    refine congrArg M ?_
    funext a; apply Fin.ext
    have hn : n.val < 14 := n.isLt
    have hd : d.val < 1024 := d.isLt
    match a with
    | ⟨0, _⟩ => show (n.val * 1024 + d.val) / 1024 = n.val; omega
    | ⟨1, _⟩ => rfl
    | ⟨2, _⟩ => show (n.val * 1024 + d.val) % 1024 = d.val; omega

theorem flushed3_eq (hz : ∀ c i, ∃ x : ℝ, zA m c i = x) (hM : ∀ c i, ∃ x : ℝ, MA m c i = x) (c : Dev nD) (t : Fin cfg0.N) (hf : (cfg0.win 3).flush t = true) :
    (dat0 (V1 m ρ) c).flushed 3 t = ((cfg0.win 3).blk t).view.read (Elt Ideal) (val_main_v25 (F := Ideal) (zA m c) (MA m c)) := by
  have h7 : t.val % 8 = 7 := (flush0_3 t).mp hf
  have hN : t.val < 16 := lt_of_lt_of_eq t.isLt (show cfg0.N = 16 from N_0)
  show (cfg0.win 3).cut (grid0.coords t) ((dat0 (V1 m ρ) c).after 3 t) = _
  rw [after0_3, out3_last _ c t h7, acc_now m ρ c t h7]
  funext y
  obtain ⟨p, d, rfl⟩ : ∃ (p : Fin 8) (d : Fin 1024), y = ix2 p d := ⟨y 0, y 1, eq_ix2 y⟩
  have hp : p.val < 8 := p.isLt
  let r : Fin 16 := ⟨t.val / 8 * 8 + p.val, by omega⟩
  show k0_pay5 (F := Ideal) _ _ _ (ix2 p d) = val_main_v25 (F := Ideal) (zA m c) (MA m c) (((cfg0.win 3).blk t).view.emb (ix2 p d))
  rw [emb3 t p d r rfl, pay5_apply, v25_at]
  refine Finset.sum_congr rfl fun n _ => congrArg₂ (· * ·) ?_ ?_
  · rw [mlc_eq m ρ hz hM c t h7 p n r rfl]
  · exact (blk0_2 (V1 m ρ) c t (ix2 n d)).trans (table1 m ρ c n d)

theorem mem_blk3 (t : Fin cfg0.N) (i : S16x1024.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v4_0).slice (win0_3.rect t)).set ↔ _
  rw [View.set_slice_whole, Rect.mem_set_unit]
  exact Iff.rfl

theorem cover3 (i : S16x1024.Idx) : ∃ t : Fin cfg0.N, (cfg0.win 3).flush t = true ∧ i ∈ ((cfg0.win 3).blk t).view.set := by
  have hi0 : (i 0).val < 16 := (i 0).isLt
  have hi1 : (i 1).val < 1024 := (i 1).isLt
  let t : Fin cfg0.N := ⟨(i 0).val / 8 * 8 + 7, by rw [show cfg0.N = 16 from N_0]; omega⟩
  have ht : t.val = (i 0).val / 8 * 8 + 7 := rfl
  refine ⟨t, (flush0_3 t).mpr (by omega), ?_⟩
  rw [mem_blk3]
  obtain ⟨-, -, -, -, -, -, -, e0, e1, -⟩ := idx0 t
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 1024 ≤ (i 1).val ∧ (i 1).val < win0_3.index t (1 : Fin 2) * 1024 + 1024; omega

/-- The corrections' array after the region is the reference's. -/
theorem final3 (hz : ∀ c i, ∃ x : ℝ, zA m c i = x) (hM : ∀ c i, ∃ x : ℝ, MA m c i = x) (c : Dev nD) : (dat0 (V1 m ρ) c).arrAt 3 cfg0.N = val_main_v25 (F := Ideal) (zA m c) (MA m c) :=
  (dat0 (V1 m ρ) c).arrAt_eq_of_cover 3 _ (fun t hf => flushed3_eq m ρ hz hM c t hf) cover3

end Finite

end Cert.KernelIdeal.Final

end
-- ==== Proof.KIFinalD.lean ====
import proofs.«131445_j70824010711116_2_alg».proof.Proof.KIFinalC

set_option maxRecDepth 16384

noncomputable section

namespace Cert.KernelIdeal.Final

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.KernelIdeal.Pool Cert.KernelIdeal.Add Cert.KernelIdeal.Run Cert.KernelIdeal.PoolValue
open Idealize.ShloMosaic.ValueIdx
open Cert.ReferenceIdeal.Read

variable (m : (ℓ : Loc nD τ sig) → Buf (Elt Ideal) ℓ) (ρ : Dev nD → PrngReg)

/-! # The broadcast-add region, and the whole run's results

The second region finds the big array as launched and the corrections the first region left. A grid point `t` is
batch block `t / 16` and sequence block `t % 16`; it writes back its block of the big array with the
correction of each row added at every sequence position. The blocks tile the result array. -/

theorem idx1 : ∀ t : Fin cfg1.N,
    win1_0.index t (0 : Fin 3) = t.val / 16 ∧ win1_0.index t (1 : Fin 3) = t.val % 16 ∧ win1_0.index t (2 : Fin 3) = 0
    ∧ win1_1.index t (0 : Fin 2) = t.val / 16 ∧ win1_1.index t (1 : Fin 2) = 0
    ∧ win1_2.index t (0 : Fin 3) = t.val / 16 ∧ win1_2.index t (1 : Fin 3) = t.val % 16 ∧ win1_2.index t (2 : Fin 3) = 0 :=
  (by decide +kernel : ∀ t : Fin grid1.N, _)

theorem V3_arg0 (c : Dev nD) : V3 m ρ c main_arg0 = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := V1_arg0 m ρ c

section Finite

theorem V3_v4_0 (hz : ∀ c i, ∃ x : ℝ, zA m c i = x) (hM : ∀ c i, ∃ x : ℝ, MA m c i = x) (c : Dev nD) : V3 m ρ c main_v4_0 = val_main_v25 (F := Ideal) (zA m c) (MA m c) :=
  calc W3 m ρ c (Proc.devRef .tc main_v4_0)
    _ = W2 m ρ c (Proc.devRef .tc main_v4_0) := StableHlo.after_of_forall_not_mem (b := Proc.devRef .tc main_v4_0) _ _ (List.forall_iff_forall_mem.mp (by
          simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = (dat0 (V1 m ρ) c).arrAt 3 cfg0.N := W2_arr m ρ c 3
    _ = val_main_v25 (F := Ideal) (zA m c) (MA m c) := final3 m ρ hz hM c

/-- The add body's result at an entry. -/
theorem addPay_apply (x0 : FVec Ideal S8x256x1024 .f32) (x1 : FVec Ideal S8x1024 .f32) (p : Fin 8) (q : Fin 256) (d : Fin 1024) :
    k1_pay1 (F := Ideal) x0 x1 (ix3 p q d) = x0 (ix3 p q d) + x1 (ix2 p d) := by
  unfold k1_pay1
  rw [shapeCast_self]
  show x0 (ix3 p q d) + broadcastTo S8x256x1024 (shapeCast S8x1x1024 x1 shapeCasts_S8x1024_S8x1x1024) broadcasts_S8x1x1024_S8x256x1024 (ix3 p q d) = _
  refine congrArg (x0 (ix3 p q d) + ·) ?_
  refine (broadcastTo_apply _ broadcasts_S8x1x1024_S8x256x1024 (ix3 p q d) (ix3 p (0 : Fin 1) d) (fun a => match a with
    | ⟨0, _⟩ => by show p.val = if (8 : Nat) = 1 then 0 else p.val; rw [if_neg (by decide)]
    | ⟨1, _⟩ => by show 0 = if (1 : Nat) = 1 then 0 else q.val; rw [if_pos rfl]
    | ⟨2, _⟩ => by show d.val = if (1024 : Nat) = 1 then 0 else d.val; rw [if_neg (by decide)])).trans ?_
  refine shapeCast_apply x1 shapeCasts_S8x1024_S8x1x1024 (ix3 p (0 : Fin 1) d) (ix2 p d) ?_
  rewrite [Shape.rowMajor_val_three, Shape.rowMajor_val_two]
  show p.val * 1024 + d.val = (p.val * 1 + 0) * 1024 + d.val; omega

theorem emb2 (t : Fin cfg1.N) (p : Fin 8) (q : Fin 256) (d : Fin 1024) (r : Fin 16) (s : Fin 4096)
    (hr : r.val = t.val / 16 * 8 + p.val) (hs : s.val = t.val % 16 * 256 + q.val) :
    ((cfg1.win 2).blk t).view.emb (ix3 p q d) = (ix3 r s d : S16x4096x1024.Idx) := by
  obtain ⟨-, -, -, -, -, e0, e1, e2⟩ := idx1 t
  funext a; apply Fin.ext
  match a with
  | ⟨0, _⟩ => show win1_2.index t (0 : Fin 3) * 8 + 1 * p.val = r.val; omega
  | ⟨1, _⟩ => show win1_2.index t (1 : Fin 3) * 256 + 1 * q.val = s.val; omega
  | ⟨2, _⟩ => show win1_2.index t (2 : Fin 3) * 1024 + 1 * d.val = d.val; omega

theorem blk1_0 (c : Dev nD) (t : Fin cfg1.N) (p : Fin 8) (q : Fin 256) (d : Fin 1024) (r : Fin 16) (s : Fin 4096)
    (hr : r.val = t.val / 16 * 8 + p.val) (hs : s.val = t.val % 16 * 256 + q.val) :
    iblk1 (V3 m ρ) c 0 t (ix3 p q d) = zA m c (ix3 r s d) := by
  obtain ⟨e0, e1, e2, -⟩ := idx1 t
  show V3 m ρ c main_arg0 (((cfg1.win 0).blk t).view.emb (ix3 p q d)) = _
  rw [V3_arg0]
  refine congrArg (m ((c : Thread nD τ).loc main_arg0)) (funext fun a => Fin.ext ?_)
  match a with
  | ⟨0, _⟩ => show win1_0.index t (0 : Fin 3) * 8 + 1 * p.val = r.val; omega
  | ⟨1, _⟩ => show win1_0.index t (1 : Fin 3) * 256 + 1 * q.val = s.val; omega
  | ⟨2, _⟩ => show win1_0.index t (2 : Fin 3) * 1024 + 1 * d.val = d.val; omega

theorem blk1_1 (hz : ∀ c i, ∃ x : ℝ, zA m c i = x) (hM : ∀ c i, ∃ x : ℝ, MA m c i = x) (c : Dev nD) (t : Fin cfg1.N) (p : Fin 8) (d : Fin 1024) (r : Fin 16) (hr : r.val = t.val / 16 * 8 + p.val) :
    iblk1 (V3 m ρ) c 1 t (ix2 p d) = val_main_v25 (F := Ideal) (zA m c) (MA m c) (ix2 r d) := by
  obtain ⟨-, -, -, e0, e1, -⟩ := idx1 t
  show V3 m ρ c main_v4_0 (((cfg1.win 1).blk t).view.emb (ix2 p d)) = _
  rw [V3_v4_0 m ρ hz hM]
  refine congrArg (val_main_v25 (F := Ideal) (zA m c) (MA m c)) (funext fun a => Fin.ext ?_)
  match a with
  | ⟨0, _⟩ => show win1_1.index t (0 : Fin 2) * 8 + 1 * p.val = r.val; omega
  | ⟨1, _⟩ => show win1_1.index t (1 : Fin 2) * 1024 + 1 * d.val = d.val; omega

/-- The reference's result at an entry: the big array's entry plus the row's correction. -/
theorem v28_at (z : (⟨Cert.ReferenceIdeal.S16x4096x1024, .f32⟩ : BufTy).Contents (Elt Ideal)) (M : (⟨Cert.ReferenceIdeal.S14x2x1024, .f32⟩ : BufTy).Contents (Elt Ideal))
    (r : Fin 16) (s : Fin 4096) (d : Fin 1024) :
    val_main_v28 (F := Ideal) z M (ix3 r s d) = z (ix3 r s d) + val_main_v25 (F := Ideal) z M (ix2 r d) := by
  rw [val_main_v28_apply, val_main_v27_apply, val_main_v26_apply]
  refine congrArg (z (ix3 r s d) + ·) (congrArg _ ?_)
  funext a; apply Fin.ext
  match a with
  | ⟨0, _⟩ => rfl
  | ⟨1, _⟩ => rfl

theorem flushed2_eq (hz : ∀ c i, ∃ x : ℝ, zA m c i = x) (hM : ∀ c i, ∃ x : ℝ, MA m c i = x) (c : Dev nD) (t : Fin cfg1.N) :
    (dat1 (V3 m ρ) c).flushed 2 t = ((cfg1.win 2).blk t).view.read (Elt Ideal) (val_main_v28 (F := Ideal) (zA m c) (MA m c)) := by
  have hN : t.val < 32 := lt_of_lt_of_eq t.isLt (show cfg1.N = 32 from N_1)
  show (cfg1.win 2).cut (grid1.coords t) ((dat1 (V3 m ρ) c).after 2 t) = _
  rw [after1_2]
  unfold outAdd
  rw [View.canon_unit_zero Pool.hz3]
  simp only [View.ld_unit_zero (S := S8x256x1024) Pool.hz3, View.ld_unit_zero (S := S8x1024) Pool.hz2]
  funext y
  obtain ⟨p, q, d, rfl⟩ : ∃ (p : Fin 8) (q : Fin 256) (d : Fin 1024), y = ix3 p q d := ⟨y 0, y 1, y 2, eq_ix3 y⟩
  have hp : p.val < 8 := p.isLt
  have hq : q.val < 256 := q.isLt
  let r : Fin 16 := ⟨t.val / 16 * 8 + p.val, by omega⟩
  let s : Fin 4096 := ⟨t.val % 16 * 256 + q.val, by omega⟩
  show k1_pay1 (F := Ideal) _ _ (ix3 p q d) = val_main_v28 (F := Ideal) (zA m c) (MA m c) (((cfg1.win 2).blk t).view.emb (ix3 p q d))
  rw [emb2 t p q d r s rfl rfl, addPay_apply, v28_at, blk1_0 m ρ c t p q d r s rfl rfl, blk1_1 m ρ hz hM c t p d r rfl]

theorem mem_blk2 (t : Fin cfg1.N) (i : S16x4096x1024.Idx) :
    i ∈ ((cfg1.win 2).blk t).view.set ↔ ∀ a : Fin 3, win1_2.index t a * S8x256x1024.size a ≤ (i a).val ∧ (i a).val < win1_2.index t a * S8x256x1024.size a + S8x256x1024.size a := by
  show i ∈ ((View.whole main_v5).slice (win1_2.rect t)).set ↔ _
  rw [View.set_slice_whole, Rect.mem_set_unit]
  exact Iff.rfl

theorem cover2 (i : S16x4096x1024.Idx) : ∃ t : Fin cfg1.N, (cfg1.win 2).flush t = true ∧ i ∈ ((cfg1.win 2).blk t).view.set := by
  have hi0 : (i 0).val < 16 := (i 0).isLt
  have hi1 : (i 1).val < 4096 := (i 1).isLt
  have hi2 : (i 2).val < 1024 := (i 2).isLt
  let t : Fin cfg1.N := ⟨(i 0).val / 8 * 16 + (i 1).val / 256, by rw [show cfg1.N = 32 from N_1]; omega⟩
  have ht : t.val = (i 0).val / 8 * 16 + (i 1).val / 256 := rfl
  refine ⟨t, flush1_2 t, ?_⟩
  rw [mem_blk2]
  obtain ⟨-, -, -, -, -, e0, e1, e2⟩ := idx1 t
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 256 ≤ (i 1).val ∧ (i 1).val < win1_2.index t (1 : Fin 3) * 256 + 256; omega
  | ⟨2, _⟩ => show win1_2.index t (2 : Fin 3) * 1024 ≤ (i 2).val ∧ (i 2).val < win1_2.index t (2 : Fin 3) * 1024 + 1024; omega

theorem final2 (hz : ∀ c i, ∃ x : ℝ, zA m c i = x) (hM : ∀ c i, ∃ x : ℝ, MA m c i = x) (c : Dev nD) : (dat1 (V3 m ρ) c).arrAt 2 cfg1.N = val_main_v28 (F := Ideal) (zA m c) (MA m c) :=
  (dat1 (V3 m ρ) c).arrAt_eq_of_cover 2 _ (fun t _ => flushed2_eq m ρ hz hM c t) cover2

/-! ## The results of the whole run -/

theorem W4_v5 (hz : ∀ c i, ∃ x : ℝ, zA m c i = x) (hM : ∀ c i, ∃ x : ℝ, MA m c i = x) (c : Dev nD) : W4 m ρ c (Proc.devRef .tc main_v5) = val_main_v28 (F := Ideal) (zA m c) (MA m c) :=
  (W4_arr m ρ c 2).trans (final2 m ρ hz hM c)

theorem W4_v4_1 (hz : ∀ c i, ∃ x : ℝ, zA m c i = x) (hM : ∀ c i, ∃ x : ℝ, MA m c i = x) (c : Dev nD) : W4 m ρ c (Proc.devRef .tc main_v4_1) = val_main_v19 (F := Ideal) (zA m c) (MA m c) :=
  calc W4 m ρ c (Proc.devRef .tc main_v4_1)
    _ = W3 m ρ c (Proc.devRef .tc main_v4_1) := W4_of_ne m ρ c main_v4_1 (by decide)
    _ = W2 m ρ c (Proc.devRef .tc main_v4_1) := StableHlo.after_of_forall_not_mem (b := Proc.devRef .tc main_v4_1) _ _ (List.forall_iff_forall_mem.mp (by
          simp only [hostOps0, hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          first | exact StableHlo.devRef_ne_of_ne (by decide) | (repeat' apply And.intro) <;> exact StableHlo.devRef_ne_of_ne (by decide)))
    _ = (dat0 (V1 m ρ) c).arrAt 4 cfg0.N := W2_arr m ρ c 4
    _ = val_main_v19 (F := Ideal) (zA m c) (MA m c) := final4 m ρ hz hM c

/-- THE KERNEL'S RUN with its results named: for finite inputs the two results are the reference's functions of the
    two argument arrays, and the arguments end as launched. -/
theorem run_value (hz : ∀ c i, ∃ x : ℝ, zA m c i = x) (hM : ∀ c i, ∃ x : ℝ, MA m c i = x) : θ_run defs (onTc (τ := τ) (main (F := Ideal))) ⟨m, fun _ => 0, ρ⟩ (fun r => ∀ c : Dev nD,
      r.2.mem ((c.tc : Thread nD τ).loc main_v5) = val_main_v28 (F := Ideal) (zA m c) (MA m c)
      ∧ r.2.mem ((c.tc : Thread nD τ).loc main_v4_1) = val_main_v19 (F := Ideal) (zA m c) (MA m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v5 (by decide))).trans (W4_v5 m ρ hz hM c),
     (h c _ (mem_uc main_v4_1 (by decide))).trans (W4_v4_1 m ρ hz hM c),
     (h c _ (mem_uc main_arg0 (by decide))).trans (W4_main_arg0 m ρ c),
     (h c _ (mem_uc main_arg1 (by decide))).trans (W4_main_arg1 m ρ c)⟩) (run_all m ρ)

end Finite

end Cert.KernelIdeal.Final

end
-- ==== Proof.Finite.lean ====
import proofs.«131445_j70824010711116_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-! # The precondition read back: every entry of both inputs is a real number -/

instance : Subsingleton S_.Idx := ⟨fun a b => funext fun d => d.elim0⟩

/-- An extended real whose absolute value is below plus infinity is a real number. -/
theorem real_of_abs_lt (x : EReal) (h : Ideal.cmp .olt (max x (-x)) (Ideal.ofBits .f32 0x7F800000#32) = 1#1) : ∃ r : ℝ, x = r := by
  have htop : Ideal.ofBits .f32 0x7F800000#32 = (⊤ : EReal) := by simp [Ideal.ofBits, Ideal.ieee]
  rw [htop] at h
  have hlt : max x (-x) < ⊤ := by
    by_contra hn
    unfold Ideal.cmp at h
    simp [hn] at h
  induction x using EReal.rec with
  | bot => simp at hlt
  | coe r => exact ⟨r, rfl⟩
  | top => simp at hlt

theorem finite_of_pre [Facts] (x0 : FVec Ideal S16x4096x1024 .f32) (x1 : FVec Ideal S14x2x1024 .f32)
    (h : fn (F := Ideal) x0 x1 = fun _ => 1#1) : (∀ i, ∃ r : ℝ, x0 i = r) ∧ (∀ i, ∃ r : ℝ, x1 i = r) := by
  have h0 := congrFun h ValueIdx.ix0
  dsimp only [fn] at h0
  have h1 := IntOp.andi_eq_one.mp h0
  exact ⟨fun i => real_of_abs_lt _ (Host.reduce_andi_all _ _ _ _ _ h1.1 i),
    fun i => real_of_abs_lt _ (Host.reduce_andi_all _ _ _ _ _ h1.2 i)⟩

end Cert.Finite

end
-- ==== Proof.lean ====
/- The pooled-correction kernel against its reference, over the extended reals.

   Both programs average a [16, 4096, 1024] array over its sequence axis, score each pooled row against the two
   states of each of 14 table rows (an inner product over the 1024 features, scaled by 1/32), turn the two scores
   into the probability of the second state, keep the table rows whose probability exceeds 0.2, and add the sum of
   the kept rows' second-state entries to every sequence position of the big array. They differ in how they get
   there: the kernel sums eight blocks of 512 positions into an accumulator and multiplies by 1/4096 where the
   reference sums all 4096 and divides; it multiplies the inner products by 1/32 where the reference divides by the
   square root of 1024; and it takes the logistic function of the scores' difference where the reference takes the
   second entry of a two-entry softmax, with the larger score subtracted first. The sums agree because addition of
   extended reals is commutative and associative; the two scalings agree on every extended real; the softmax's entry
   is the logistic function as soon as the two scores are real numbers, which is where the precondition (every input
   finite) is used.

   The three frames: each kernel region's body is run case by case (first, middle and last point of a row of
   the grid), the accumulator tracked from point to point; the reference's frame is its run with the results dropped. -/
import proofs.«131445_j70824010711116_2_alg».proof.Defs
import proofs.«131445_j70824010711116_2_alg».proof.Proof.KRun
import proofs.«131445_j70824010711116_2_alg».proof.Proof.KIFinalD
import proofs.«131445_j70824010711116_2_alg».proof.Proof.Finite
import proofs.«131445_j70824010711116_2_alg».proof.Proof.Gen.Kernel
import proofs.«131445_j70824010711116_2_alg».proof.Proof.Gen.KernelIdeal
import proofs.«131445_j70824010711116_2_alg».proof.Proof.Gen.ReferenceIdeal
import proofs.«131445_j70824010711116_2_alg».proof.Proof.Gen.ReferenceIdeal.Run
import proofs.«131445_j70824010711116_2_alg».proof.Proof.Gen.ReferenceIdeal.Read
import proofs.«131445_j70824010711116_2_alg».proof.Proof.Gen.Pre_finite_inputs

noncomputable section

namespace Cert.Proof

open Idealize.ShloMosaic Idealize.SL.Sem

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Under the precondition both inputs are real-valued, the kernel's results are the reference's staged functions of
    the argument arrays, and the reference's run ends at the same functions of arrays that agree. -/
theorem algebraic : Cert.algebraic_KernelIdeal_ReferenceIdeal := by
  intro m ρ m' ρ' hpre hagree
  have hfin := fun c => Cert.Finite.finite_of_pre _ _ (hpre c)
  refine ⟨fun c => Cert.ReferenceIdeal.Read.val_main_v28 (F := Ideal) (Cert.KernelIdeal.Final.zA m c) (Cert.KernelIdeal.Final.MA m c),
    fun c => Cert.ReferenceIdeal.Read.val_main_v19 (F := Ideal) (Cert.KernelIdeal.Final.zA m c) (Cert.KernelIdeal.Final.MA m c),
    Cert.KernelIdeal.Final.run_value m ρ (fun c => (hfin c).1) (fun c => (hfin c).2), ?_⟩
  refine (θ_run Cert.ReferenceIdeal.defs _ _).mono (fun _ h c => ⟨?_, ?_, (h c).2.2.1, (h c).2.2.2⟩)
    (Cert.ReferenceIdeal.Value.run (F := Ideal) m' ρ')
  · refine (h c).1.trans ?_
    rw [(hagree c).1, (hagree c).2]
    exact Cert.ReferenceIdeal.Read.val_main_v28_eq _ _
  · refine (h c).2.1.trans ?_
    rw [(hagree c).1, (hagree c).2]
    exact Cert.ReferenceIdeal.Read.val_main_v19_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
